-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S128x512 : Shape := ⟨2, ![128, 512]⟩
abbrev S8192x8192 : Shape := ⟨2, ![8192, 8192]⟩
abbrev S_ : Shape := ⟨0, ![]⟩
abbrev S512x128 : Shape := ⟨2, ![512, 128]⟩
abbrev S8192x128 : Shape := ⟨2, ![8192, 128]⟩
abbrev S128x8192 : Shape := ⟨2, ![128, 8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S8192x8192 : S_.BroadcastsInDim S8192x8192 (![] : Fin 0 → Fin S8192x8192.rank)
  reducesTo_S8192x8192_S_d0_1 : S8192x8192.ReducesTo [0, 1] S_
  transposes_S128x512_S512x128_1_0 : S128x512.Transposes [1, 0] S512x128
  transposes_S8192x128_S128x8192_1_0 : S8192x128.Transposes [1, 0] S128x8192
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []

variable [Facts]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def fn_part1 {F : FTy → Type} [FloatOps F] (main_arg0 : FVec F S8192x512 .f32) (main_arg1 : FVec F S128x512 .f32) (main_arg2 : FVec F S128x512 .f32) (main_arg3 : FVec F S8192x8192 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x128 .f32 := (transpose S512x128 [1, 0] · transposes_S128x512_S512x128_1_0) main_arg1
  let main_v20 : FVec F S8192x128 .f32 := (fun l r => Host.dotGeneral dot_S8192x512_S512x128_S8192x128_1_0_0_1_n_n none l r) main_arg0 main_v19
  let main_v21 : FVec F S8192x128 .f32 := Host.tanh main_v20
  let main_v22 : FVec F S512x128 .f32 := (transpose S512x128 [1, 0] · transposes_S128x512_S512x128_1_0) main_arg2
  let main_v23 : FVec F S8192x128 .f32 := (fun l r => Host.dotGeneral dot_S8192x512_S512x128_S8192x128_1_0_0_1_n_n none l r) main_arg0 main_v22
  let main_v24 : FVec F S8192x128 .f32 := Host.tanh main_v23
  let main_v25 : FVec F S128x8192 .f32 := (transpose S128x8192 [1, 0] · transposes_S8192x128_S128x8192_1_0) main_v21
  let main_v26 : FVec F S8192x8192 .f32 := (fun l r => Host.dotGeneral dot_S8192x128_S128x8192_S8192x8192_1_0_0_1_n_n none l r) main_v24 main_v25
  let main_cst_6 : FVec F S_ .f32 := constant S_ .f32 0x3DB504F3#32
  let main_v27 : FVec F S8192x8192 .f32 := broadcastInDim S8192x8192 ![] bcast_S_S8192x8192 main_cst_6
  let main_v28 : FVec F S8192x8192 .f32 := mulf main_v26 main_v27
  let main_v29 : FVec F S8192x8192 .f32 := Host.exp main_v28
  let main_v30 : FVec F S8192x8192 .f32 := mulf main_v29 main_arg3
  let main_cst_7 : FVec F S_ .f32 := constant S_ .f32 0x00000000#32
  let main_v31 : FVec F S_ .f32 := (fun x v => Host.reduceAdd x v reducesTo_S8192x8192_S_d0_1 h_S_) main_v30 main_cst_7
  let main_cst_8 : FVec F S_ .f32 := constant S_ .f32 0x00000000#32
  let main_v32 : IVec S_ 1 := cmpf .une main_v31 main_cst_8
  let main_v33 : IVec S_ 1 := andi main_v18 main_v32
  main_v33

def fn {F : FTy → Type} [FloatOps F] (main_arg0 : FVec F S8192x512 .f32) (main_arg1 : FVec F S128x512 .f32) (main_arg2 : FVec F S128x512 .f32) (main_arg3 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg0 main_arg1 main_arg2 main_arg3 main_v13 main_v16
-- ==== Kernel.lean ====
abbrev S8192x512 : Shape := ⟨2, ![8192, 512]⟩
abbrev S128x512 : Shape := ⟨2, ![128, 512]⟩
abbrev S8192x8192 : Shape := ⟨2, ![8192, 8192]⟩
abbrev S512x128 : Shape := ⟨2, ![512, 128]⟩
abbrev S8192x128 : Shape := ⟨2, ![8192, 128]⟩
abbrev S1024x512 : Shape := ⟨2, ![1024, 512]⟩
abbrev S1024x128 : Shape := ⟨2, ![1024, 128]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩

abbrev nBuf : Space → Nat
  | .hbm => 16
  | .vmem => 27
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S128x512, .f32⟩
  | .hbm, ⟨3, _⟩ => ⟨S8192x8192, .f32⟩
  | .hbm, ⟨4, _⟩ => ⟨S512x128, .f32⟩
  | .hbm, ⟨5, _⟩ => ⟨S512x128, .f32⟩
  | .hbm, ⟨6, _⟩ => ⟨S8192x128, .bf16⟩
  | .hbm, ⟨7, _⟩ => ⟨S8192x128, .bf16⟩
  | .hbm, ⟨8, _⟩ => ⟨S8192x128, .f32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .bf16⟩
  | .hbm, ⟨15, _⟩ => ⟨S8192x128, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S512x128, .f32⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .f32⟩
  | .local _ .vmem, ⟨13, _⟩ => ⟨S1024x1024, .f32⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .vmem, ⟨19, _⟩ => ⟨S1024x1, .f32⟩
  | .local _ .vmem, ⟨20, _⟩ => ⟨S1024x1024, .f32⟩
  | .local _ .vmem, ⟨21, _⟩ => ⟨S1024x1024, .f32⟩
  | .local _ .vmem, ⟨22, _⟩ => ⟨S1024x128, .bf16⟩
  | .local _ .vmem, ⟨23, _⟩ => ⟨S1024x128, .bf16⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3_0 : Ref sig .tc := ⟨.hbm, 8, rfl⟩
abbrev main_v3_1 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_17 : BitVec 32 := 0#32
  let v29 : BitVec 1 := Scalar.cmpi .ne v28 c0_i32_17
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  transposes_S128x512_S512x128_1_0 : S128x512.Transposes [1, 0] S512x128
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  bcast_S_S8192x128 : S_.BroadcastsInDim S8192x128 (![] : Fin 0 → Fin S8192x128.rank)
  dot_S1024x512_S512x128_S1024x128_1_0_0_1_n_n_wf : DotDims.WF S1024x512 S512x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .bf16 = 32 ∨ (Rect.block (s := S8192x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .bf16 = 32 ∨ (Rect.block (s := S8192x128) S1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .bf16 = 32 ∨ (Rect.block (s := S8192x128) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2_1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1024x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x512 : Shape := ⟨2, ![8192, 512]⟩
abbrev S128x512 : Shape := ⟨2, ![128, 512]⟩
abbrev S8192x8192 : Shape := ⟨2, ![8192, 8192]⟩
abbrev S512x128 : Shape := ⟨2, ![512, 128]⟩
abbrev S8192x128 : Shape := ⟨2, ![8192, 128]⟩
abbrev S128x8192 : Shape := ⟨2, ![128, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S128x512, .f32⟩
  | .hbm, ⟨2, _⟩ => ⟨S128x512, .f32⟩
  | .hbm, ⟨3, _⟩ => ⟨S8192x8192, .f32⟩
  | .hbm, ⟨4, _⟩ => ⟨S512x128, .f32⟩
  | .hbm, ⟨5, _⟩ => ⟨S8192x128, .f32⟩
  | .hbm, ⟨6, _⟩ => ⟨S8192x128, .f32⟩
  | .hbm, ⟨7, _⟩ => ⟨S512x128, .f32⟩
  | .hbm, ⟨8, _⟩ => ⟨S8192x128, .f32⟩
  | .hbm, ⟨9, _⟩ => ⟨S8192x128, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x128, .f32⟩
  | .hbm, ⟨22, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S128x512_S512x128_1_0 : S128x512.Transposes [1, 0] S512x128
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x512_S512x128_S8192x128_1_0_0_1_n_n_wf : DotDims.WF S8192x512 S512x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.Defs.lean ====
/-
  What the three kernel regions of the program compute, as pure functions of the buffer contents a region
  finds on entry. A window's block at a grid point is the part of its array the point's index map selects. Region 0
  maps a block of rows of `seq` to tanh of its product with each transposed weight matrix. Regions 1 and 2 walk an
  8 × 8 grid, point `t` at row block `t / 8` and contraction block `k = t % 8`; each keeps accumulators in
  scratch that it resets at `k = 0` and to which every point adds its block's contribution, so that after the point
  with `k = 7` the accumulator of a row block holds the sum over all eight contraction blocks.
-/
import proofs.«161805_j76459007803804_1_alg».proof.Proof.Gen.Kernel.Skeleton
import proofs.«161805_j76459007803804_1_alg».proof.Proof.Gen.Kernel.Launch
import proofs.«161805_j76459007803804_1_alg».proof.Proof.Gen.Kernel.Points

noncomputable section

namespace Cert.Kernel.Hand

open Idealize.ShloMosaic Idealize.ShloMosaic.TcCoe
open Idealize.SL Idealize.SL.Sem
open Cert.Kernel Cert.Kernel.Gen

variable {F : FTy → Type} [FloatOps F]

-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block of region 2 at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 1's two accumulators after point `n`: the weighted sum of value rows and the row sums of the
    coefficients, over the contraction blocks `0 … n % 8` of the point's row block. -/
def acc1 (c : Dev nD) : (n : ℕ) → n < cfg1.N → Vec F S1024x128 .f32 × Vec F S1024x1 .f32
  | 0, hn =>
    (k1_pay6 (iblk1 V c 0 ⟨0, hn⟩) (iblk1 V c 1 ⟨0, hn⟩) (iblk1 V c 2 ⟨0, hn⟩) (k1_pay1 (F := F)),
     k1_pay5 (iblk1 V c 0 ⟨0, hn⟩) (iblk1 V c 1 ⟨0, hn⟩) (iblk1 V c 2 ⟨0, hn⟩) (k1_pay2 (F := F)))
  | n + 1, hn =>
    if (n + 1) % 8 = 0 then
      (k1_pay6 (iblk1 V c 0 ⟨n + 1, hn⟩) (iblk1 V c 1 ⟨n + 1, hn⟩) (iblk1 V c 2 ⟨n + 1, hn⟩) (k1_pay1 (F := F)),
       k1_pay5 (iblk1 V c 0 ⟨n + 1, hn⟩) (iblk1 V c 1 ⟨n + 1, hn⟩) (iblk1 V c 2 ⟨n + 1, hn⟩) (k1_pay2 (F := F)))
    else
      (k1_pay6 (iblk1 V c 0 ⟨n + 1, hn⟩) (iblk1 V c 1 ⟨n + 1, hn⟩) (iblk1 V c 2 ⟨n + 1, hn⟩) (acc1 c n (Nat.lt_of_succ_lt hn)).1,
       k1_pay5 (iblk1 V c 0 ⟨n + 1, hn⟩) (iblk1 V c 1 ⟨n + 1, hn⟩) (iblk1 V c 2 ⟨n + 1, hn⟩) (acc1 c n (Nat.lt_of_succ_lt hn)).2)

/-- Region 2's accumulator after point `n`: the product of the bias rows with the normalised values, over the
    contraction blocks `0 … n % 8` of the point's row block. -/
def acc2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn =>
    if (n + 1) % 8 = 0 then
      k2_pay2 (iblk2 V c 0 ⟨n + 1, hn⟩) (iblk2 V c 1 ⟨n + 1, hn⟩) (k2_pay1 (F := F))
    else
      k2_pay2 (iblk2 V c 0 ⟨n + 1, hn⟩) (iblk2 V c 1 ⟨n + 1, hn⟩) (acc2 c n (Nat.lt_of_succ_lt hn))

/-- At a point that opens a row block the accumulators start from zero. -/
theorem acc1_reset (c : Dev nD) (t : Fin cfg1.N) (h : t.val % 8 = 0) :
    acc1 V c t.val t.isLt =
      (k1_pay6 (iblk1 V c 0 t) (iblk1 V c 1 t) (iblk1 V c 2 t) (k1_pay1 (F := F)),
       k1_pay5 (iblk1 V c 0 t) (iblk1 V c 1 t) (iblk1 V c 2 t) (k1_pay2 (F := F))) := by
  obtain ⟨n, hn⟩ := t
  cases n with
  | zero => rfl
  | succ n => exact if_pos h

/-- At any other point they add the point's contribution to what the point before left. -/
theorem acc1_step (c : Dev nD) (t : Fin cfg1.N) (h : ¬t.val % 8 = 0) :
    acc1 V c t.val t.isLt =
      (k1_pay6 (iblk1 V c 0 t) (iblk1 V c 1 t) (iblk1 V c 2 t) (acc1 V c (t.val - 1) (Nat.lt_of_le_of_lt (Nat.sub_le _ _) t.isLt)).1,
       k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd (Nat.zero_mod _) h
  | succ n => exact if_neg h

theorem acc2_reset (c : Dev nD) (t : Fin cfg2.N) (h : t.val % 8 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_step (c : Dev nD) (t : Fin cfg2.N) (h : ¬t.val % 8 = 0) :
    acc2 V c t.val t.isLt =
      k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

end Cert.Kernel.Hand

end
-- ==== Proof.K.R0.lean ====
/-
  Region 0 of the program: the projection kernel, a grid of 8 points. At a point it reads a block of 1024 rows of the
  sequence and the two transposed weight matrices (fetched once, at the first point, and found in place afterwards),
  and writes, whole, the two output blocks: tanh of the block's product with each weight matrix, rounded to bf16.
  Nothing is carried from point to point, so the invariant is the plain one and what a point leaves in each output
  window is a closed function of the three input blocks at the point.
-/
import proofs.«161805_j76459007803804_1_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows hold their blocks at every point -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at the first point only): where it is not fetched its block index has not moved, so the
    buffer still holds the point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole buffer -/

abbrev r0_a : Rect S1024x512 := Rect.unit (s := S1024x512) ![0, 0] S1024x512.size inb_S1024x512_S1024x512_0_0
abbrev r0_w : Rect S512x128 := Rect.unit (s := S512x128) ![0, 0] S512x128.size inb_S512x128_S512x128_0_0
abbrev r0_o : Rect S1024x128 := Rect.unit (s := S1024x128) ![0, 0] S1024x128.size inb_S1024x128_S1024x128_0_0

/-- The offset of every access is the origin. -/
theorem off_zero : (![0, 0] : Fin 2 → ℕ) = fun _ => 0 := by
  funext a; fin_cases a <;> rfl

/-- One store through the whole-buffer rectangle covers the buffer. -/
theorem cover0_o (p0 : Vec F S1024x128 .bf16) (y : S1024x128.Idx) :
    ∃ pc ∈ ([⟨r0_o, p0⟩] : List (View.Piece (Elt F) S1024x128 .bf16)), y ∈ pc.1.set :=
  View.cover_of_tiled [⟨r0_o, p0⟩] S1024x128.size (by rfl) y

/-- What the one store leaves is its payload, and the payload reads the input buffers whole. -/
theorem out0_3_eq (x0 : Vec F S1024x512 .f32) (x1 : Vec F S512x128 .f32) :
    View.canon [(⟨r0_o, k0_pay2 (View.ld x0 r0_a) (View.ld x1 r0_w)⟩ : View.Piece (Elt F) S1024x128 .bf16)] = k0_pay2 x0 x1 := by
  rw [View.canon_unit_zero off_zero]
  simp only [View.ld_unit_zero (S := S1024x512) off_zero, View.ld_unit_zero (S := S512x128) off_zero]

theorem out0_4_eq (x0 : Vec F S1024x512 .f32) (x2 : Vec F S512x128 .f32) :
    View.canon [(⟨r0_o, k0_pay3 (View.ld x0 r0_a) (View.ld x2 r0_w)⟩ : View.Piece (Elt F) S1024x128 .bf16)] = k0_pay3 x0 x2 := by
  rw [View.canon_unit_zero off_zero]
  simp only [View.ld_unit_zero (S := S1024x512) off_zero, View.ld_unit_zero (S := S512x128) off_zero]

/-! ## The body's triple -/

set_option maxHeartbeats 1000000 in
/-- The kernel body on whole staging memrefs, the inputs' at read contents and the outputs' at anything, runs to the
    continuation holding the inputs' as they were and each output's at its payload of the inputs. -/
theorem sound_kernel0 (c : Dev nD) (E : Set ℕ) (i : grid0.Coords)
    (arg1 : Memref sig .tc .vmem S1024x512 .f32) (harg1 : arg1.IsWhole)
    (arg2 : Memref sig .tc .vmem S512x128 .f32) (harg2 : arg2.IsWhole)
    (arg3 : Memref sig .tc .vmem S512x128 .f32) (harg3 : arg3.IsWhole)
    (arg4 : Memref sig .tc .vmem S1024x128 .bf16) (harg4 : arg4.IsWhole)
    (arg5 : Memref sig .tc .vmem S1024x128 .bf16) (harg5 : arg5.IsWhole)
    (x0 : Vec F S1024x512 .f32) (x1 x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1) ∗ owns (c : Thread nD τ) arg5 fullShare (k0_pay3 x0 x2)) -∗ K ⟨⟩))
      ⊢ wp frame (wpE (defs₀ (F := F)) Variants.none c none) E (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover0_o _)).trans (out0_3_eq _ _)
  iexists _; isplitr
  swap; · iexact H4
  ipureintro
  exact (View.read_writes_eq_canon _ _ _ (cover0_o _)).trans (out0_4_eq _ _)

/-! ## The pipeline's proof data -/

/-- The proof data of pipeline 0 on core c: the arrays as the region finds them; after the body at point t each
    input's buffer at its block and each output's at its payload of the input blocks; the plain invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t)
    | ⟨4, _⟩ => k0_pay3 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) := by dsimp only [dat0]
theorem after0_4 (c : Dev nD) (t : Fin cfg0.N) : (dat0 V c).after 4 t = k0_pay3 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point and after the last is the plain one. -/
theorem hin0 (c : Dev nD) : Pipeline.ΦA spec0 c ⊢ ((dat0 V c).Φ 0 : sProp 𝕄) := .rfl
theorem hout0 (c : Dev nD) : ((dat0 V c).Φ (Fin.last cfg0.N) : sProp 𝕄) ⊢ Pipeline.ΦA spec0 c := .rfl

end Cert.Kernel.Hand

end
-- ==== Proof.K.R2K.lean ====
/-
  Region 2 of the program, its body run case by case. The body keeps an accumulator in scratch: at a point that
  opens a row block it zeroes it, at every point it adds the product of the point's bias block with the point's block
  of normalised values, and at the point that closes the row block it copies the accumulator to the output's
  staging buffer. Here: the two conditionals in closed form over the grid, where the output window is idle, and the
  body's triple in each of the three cases, every buffer at named contents.
-/
import proofs.«161805_j76459007803804_1_alg».proof.Proof.K.Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of region 2's body (the accumulator is zeroed), over the grid coordinates. -/
abbrev cond2_0 (i : grid2.Coords) : Prop := (Scalar.cmpi .ne (Scalar.extui (Scalar.cmpi .eq (BitVec.ofNat 32 (i 1).val) 0#32)) 0#32) = 1#1
/-- It holds exactly at the points that open a row block. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (the accumulator is copied to the output). -/
abbrev cond2_1 (i : grid2.Coords) : Prop := k2_cond2 i = 1#1
/-- It holds exactly at the points that close a row block. -/
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle; the output is idle, and not written back, exactly where the copy is not taken. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The zero offsets of a rank-2 whole-buffer access. -/
theorem hz2 : (![0, 0] : Fin 2 → ℕ) = fun _ => 0 := by funext a; fin_cases a <;> rfl

/-- A buffer whose last store went through the whole-shape rectangle at offset zero reads as that store's payload,
    whatever the earlier stores and the contents before them. -/
theorem read_writes_cons_unit_zero {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h]

/-! ## The body's triple, case by case -/

set_option maxHeartbeats 1000000 in
/-- At a point that opens a row block: the accumulator is zeroed, then the point's product is added to it;
    the output's buffer is not touched. -/
theorem sound_kernel2_A (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : cond2_0 i) (hc1 : ¬cond2_1 i)
    (x0 : Vec F S1024x1024 .f32) (x1 : Vec F S1024x128 .bf16) (xi : Vec F S1024x128 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 (k2_pay1 (F := F)))) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2, View.readCov_unit_zero (S := S1024x128) _ hz2]

set_option maxHeartbeats 1000000 in
/-- At a point inside a row block: the point's product is added to the accumulator; the output's buffer is not
    touched. -/
theorem sound_kernel2_B (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : ¬cond2_0 i) (hc1 : ¬cond2_1 i)
    (x0 : Vec F S1024x1024 .f32) (x1 : Vec F S1024x128 .bf16) (xi : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 xs)) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2]

set_option maxHeartbeats 1000000 in
/-- At a point that closes a row block: the point's product is added to the accumulator, which is then copied
    whole to the output's buffer (whatever that held). -/
theorem sound_kernel2_C (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : ¬cond2_0 i) (hc1 : cond2_1 i)
    (x0 : Vec F S1024x1024 .f32) (x1 : Vec F S1024x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs)
            ∗ owns (c : Thread nD τ) arg5 fullShare (k2_pay2 x0 x1 xs)) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_cons_unit_zero (S := S1024x128) _ _ hz2]
    simp only [View.readAt_eq_ld, View.ld_unit_zero (S := S1024x1024) hz2, View.ld_unit_zero (S := S1024x128) hz2, View.readCov_unit_zero (S := S1024x128) _ hz2]
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2]

end Cert.Kernel.Hand

end
-- ==== Proof.K.R1K.lean ====
/-
  Region 1 of the program, its body run case by case. The body keeps two accumulators in scratch — the weighted sum
  of value rows and the row sums of the coefficients: at a point that opens a row block it zeroes both, at every point
  it adds the point's contributions, and at the point that closes the row block it copies both to the outputs'
  staging buffers. Here: the two conditionals in closed form over the grid, where the output windows are idle, and
  the body's triple in each of the three cases, every buffer at named contents.
-/
import proofs.«161805_j76459007803804_1_alg».proof.Proof.K.R2K

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional of region 1's body (the accumulators are zeroed), over the grid coordinates. -/
abbrev cond1_0 (i : grid1.Coords) : Prop := (Scalar.cmpi .ne (Scalar.extui (Scalar.cmpi .eq (BitVec.ofNat 32 (i 1).val) 0#32)) 0#32) = 1#1
/-- It holds exactly at the points that open a row block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the accumulators are copied to the outputs). -/
abbrev cond1_1 (i : grid1.Coords) : Prop := k1_cond2 i = 1#1
/-- It holds exactly at the points that close a row block. -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle; each output is idle, and not written back, exactly where the copy is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body's triple, case by case -/

set_option maxHeartbeats 2000000 in
/-- At a point that opens a row block: both accumulators are zeroed, then the point's contributions are added;
    the outputs' buffers are not touched. -/
theorem sound_kernel1_A (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : cond1_0 i) (hc1 : ¬cond1_1 i)
    (x0 : Vec F S1024x128 .bf16) (x1 : Vec F S1024x128 .bf16) (x2 : Vec F S1024x1024 .f32)
    (xi3 : Vec F S1024x128 .f32) (xi4 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay6 x0 x1 x2 (k1_pay1 (F := F)))
            ∗ owns (c : Thread nD τ) arg8 fullShare (k1_pay5 x0 x1 x2 (k1_pay2 (F := F)))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

set_option maxHeartbeats 2000000 in
/-- At a point inside a row block: the point's contributions are added to the accumulators; the outputs' buffers are
    not touched. -/
theorem sound_kernel1_B (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : ¬cond1_0 i) (hc1 : ¬cond1_1 i)
    (x0 : Vec F S1024x128 .bf16) (x1 : Vec F S1024x128 .bf16) (x2 : Vec F S1024x1024 .f32)
    (xi3 : Vec F S1024x128 .f32) (xi4 : Vec F S1024x1 .f32) (xs0 : Vec F S1024x128 .f32) (xs1 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay6 x0 x1 x2 xs0)
            ∗ owns (c : Thread nD τ) arg8 fullShare (k1_pay5 x0 x1 x2 xs1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

set_option maxHeartbeats 2000000 in
/-- At a point that closes a row block: the point's contributions are added to the accumulators, which are then
    copied whole to the outputs' buffers (whatever those held). -/
theorem sound_kernel1_C (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : ¬cond1_0 i) (hc1 : cond1_1 i)
    (x0 : Vec F S1024x128 .bf16) (x1 : Vec F S1024x128 .bf16) (x2 : Vec F S1024x1024 .f32)
    (xs0 : Vec F S1024x128 .f32) (xs1 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1 x2 xs0) ∗ owns (c : Thread nD τ) arg6 fullShare (k1_pay5 x0 x1 x2 xs1)
            ∗ owns (c : Thread nD τ) arg7 fullShare (k1_pay6 x0 x1 x2 xs0)
            ∗ owns (c : Thread nD τ) arg8 fullShare (k1_pay5 x0 x1 x2 xs1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  isplitl [H4]
  · iexists _; isplitr
    swap; · iexact H4
    ipureintro
    sl_unfold_run_names
    rw [read_writes_cons_unit_zero (S := S1024x1) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

end Cert.Kernel.Hand

end
-- ==== Proof.K.R1.lean ====
/-
  Region 1 of the program: its half of the frame. The invariant carries the two accumulators from point to point at
  the contents the recursion `acc1` names; the proof data state each input's buffer at its block and each output's at
  its accumulator; the body obligation follows from the three case triples by the point's position in its row block.
-/
import proofs.«161805_j76459007803804_1_alg».proof.Proof.K.R1K

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The accumulators, component by component -/

theorem acc1_reset_fst (c : Dev nD) (t : Fin cfg1.N) (h : t.val % 8 = 0) :
    (acc1 V c t.val t.isLt).1 = k1_pay6 (iblk1 V c 0 t) (iblk1 V c 1 t) (iblk1 V c 2 t) (k1_pay1 (F := F)) := by
  rw [acc1_reset V c t h]
theorem acc1_reset_snd (c : Dev nD) (t : Fin cfg1.N) (h : t.val % 8 = 0) :
    (acc1 V c t.val t.isLt).2 = k1_pay5 (iblk1 V c 0 t) (iblk1 V c 1 t) (iblk1 V c 2 t) (k1_pay2 (F := F)) := by
  rw [acc1_reset V c t h]
theorem acc1_step_fst (c : Dev nD) (t : Fin cfg1.N) (h : ¬t.val % 8 = 0) :
    (acc1 V c t.val t.isLt).1 = k1_pay6 (iblk1 V c 0 t) (iblk1 V c 1 t) (iblk1 V c 2 t) (acc1 V c (t.val - 1) (Nat.lt_of_le_of_lt (Nat.sub_le _ _) t.isLt)).1 := by
  rw [acc1_step V c t h]
theorem acc1_step_snd (c : Dev nD) (t : Fin cfg1.N) (h : ¬t.val % 8 = 0) :
    (acc1 V c t.val t.isLt).2 = k1_pay5 (iblk1 V c 0 t) (iblk1 V c 1 t) (iblk1 V c 2 t) (acc1 V c (t.val - 1) (Nat.lt_of_le_of_lt (Nat.sub_le _ _) t.isLt)).2 := by
  rw [acc1_step V c t h]

/-! ## The inputs' buffers hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant: the accumulators at their named contents -/

/-- The accumulators as memrefs: the two whole scratch buffers. -/
abbrev scM1_0 : Memref sig .tc .vmem S1024x128 .f32 := Memref.whole cc1_scratch0
abbrev scM1_1 : Memref sig .tc .vmem S1024x1 .f32 := Memref.whole cc1_scratch1

/-- Every scoped buffer of the core that is neither a staging buffer of the region nor one of its accumulators, each
    at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The scoped rest, split at the accumulators. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) :=
  Pipeline.scopedRest_split_of_list spec1 c [cc1_scratch0, cc1_scratch1] (by decide) (by decide)

/-- What the launch hands the region, with the accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The region's invariant before position `n`: before the first point what the launch hands over; afterwards the
    accumulators at what the point before left in them, the other scoped buffers at anything, the generator register
    at some state. -/
def Phi1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2) ∗ rest1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (acc1 V c n hn).1 ∗ owns (c : Thread nD τ) scM1_1 fullShare (acc1 V c n hn).2) ∗ rest1 c) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (acc1 V c (n - 1) (by omega)).1 ∗ owns (c : Thread nD τ) scM1_1 fullShare (acc1 V c (n - 1) (by omega)).2) ∗ rest1 c) ∗ (∃ r, prngReg c r)) := by
  cases n with
  | zero => exact absurd rfl hz
  | succ n => rfl

/-! ## The proof data -/

/-- The proof data of the region on core `c`: the arrays as the region finds them; after the body at point `t` each
    input's buffer at its block and each output's at its accumulator's contents there; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (acc1 V c t.val t.isLt).1
    | ⟨4, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's position in its row block selects the
    case; the invariant hands the body the accumulators at what the point before left (at anything where the row
    block opens) and takes them back at this point's contents; where the row block does not close the outputs'
    buffers are handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h1 : t.val % 8 = 7
  · have h0 : ¬t.val % 8 = 0 := by omega
    have hz : t.val ≠ 0 := by omega
    rw [show (dat1 V c).leavesExact 3 t = owns (c : Thread nD τ) (st1_3 t) fullShare ((dat1 V c).after 3 t) from by
      unfold Dat.leavesExact; rw [liveAt1_3 t ((hcond1_1 t).mpr h1)], after1_3]
    rw [show (dat1 V c).leavesExact 4 t = owns (c : Thread nD τ) (st1_4 t) fullShare ((dat1 V c).after 4 t) from by
      unfold Dat.leavesExact; rw [liveAt1_4 t ((hcond1_1 t).mpr h1)], after1_4]
    rw [acc1_step_fst V c t h0, acc1_step_snd V c t h0]
    rw [Phi1_castSucc V c t, Phi1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    by_cases h0 : t.val % 8 = 0
    · rw [acc1_reset_fst V c t h0, acc1_reset_snd V c t h0]
      by_cases hz : t.val = 0
      · rw [Phi1_castSucc V c t, Phi1_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 HR Hg]
        · isplitl [HS0 HS1 HR]
          · isplitl [HS0 HS1]
            · isplitl [HS0]; · iexact HS0
              iexact HS1
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [Phi1_castSucc V c t, Phi1_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 HR Hg]
        · isplitl [HS0 HS1 HR]
          · isplitl [HS0 HS1]
            · isplitl [HS0]; · iexact HS0
              iexact HS1
            iexact HR
          iexact Hg
        isplitl [Ho]; · iexact Ho
        isplitl [H0]; · iexact H0
        isplitl [H1]; · iexact H1
        isplitl [H2]; · iexact H2
        isplitl [H3]; · iexists _; iexact H3
        iexists _; iexact H4
    · have hz : t.val ≠ 0 := fun e => h0 (by rw [e])
      rw [acc1_step_fst V c t h0, acc1_step_snd V c t h0]
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives back what the launch handed over: the accumulators' contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.Kernel.Hand

end
-- ==== Proof.K.R2.lean ====
/-
  Region 2 of the program: its half of the frame. The invariant carries the accumulator from point to point at the
  contents the recursion `acc2` names; the proof data state each input's buffer at its block and the output's at the
  accumulator; the body obligation follows from the three case triples by the point's position in its row block.
-/
import proofs.«161805_j76459007803804_1_alg».proof.Proof.K.R2K

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The inputs' buffers hold their blocks -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The invariant: the accumulator at its named contents -/

/-- The accumulator as a memref: the whole scratch buffer. -/
abbrev scM2 : Memref sig .tc .vmem S1024x128 .f32 := Memref.whole cc2_scratch0

/-- Every scoped buffer of the core that is neither a staging buffer of the region nor its accumulator, each at some
    contents. -/
abbrev rest2 (c : Dev nD) : sProp 𝕄 :=
  Pipeline.scopedRestBut (Ix := Unit) (Name := ℕ) (U := UR sig nD τ) (Lvl := ℕ) (Val := Elt F) spec2 c [cc2_scratch0]

/-- The scoped rest, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 c) :=
  Pipeline.scopedRest_split_of_list spec2 c [cc2_scratch0] (by decide) (by decide)

/-- What the launch hands the region, with the accumulator as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-- The region's invariant before position `n`: before the first point what the launch hands over; afterwards the
    accumulator at what the point before left in it, the other scoped buffers at anything, the generator register at
    some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ rest2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ rest2 c) ∗ (∃ r, prngReg c r)) := by
  cases n with
  | zero => exact absurd rfl hz
  | succ n => rfl

/-! ## The proof data -/

/-- The proof data of the region on core `c`: the arrays as the region finds them; after the body at point `t` each
    input's buffer at its block and the output's at the accumulator's contents there; the invariant above; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point's position in its row block selects the
    case; the invariant hands the body the accumulator at what the point before left (at anything where the row block
    opens) and takes it back at this point's contents; where the row block does not close the output's buffer is
    handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h1 : t.val % 8 = 7
  · have h0 : ¬t.val % 8 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_step V c t h0]
    rw [Phi2_castSucc V c t, Phi2_pos V c _ _ hz]
    iintro ⟨⟨⟨HS, HR⟩, Hg⟩, Ho, ⟨%d0, H0⟩, ⟨%d1, H1⟩, ⟨%d2, H2⟩⟩
    iapply (sound_kernel2_C c Set.univ (grid2.coords t) _ _ _ _ _ _ _ _ (fun h => h0 ((hcond2_0 t).mp h)) ((hcond2_1 t).mpr h1) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 8 = 0
    · rw [acc2_reset V c t h0]
      by_cases hz : t.val = 0
      · rw [Phi2_castSucc V c t, Phi2_zero V c _ _ hz, PhiA2_eq]
        iintro ⟨⟨⟨HS, HR⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi2_castSucc V c t, Phi2_pos V c _ _ hz]
        iintro ⟨⟨⟨HS, HR⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun e => h0 (by rw [e])
      rw [acc2_step V c t h0]
      rw [Phi2_castSucc V c t, Phi2_pos V c _ _ hz]
      iintro ⟨⟨⟨HS, HR⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives back what the launch handed over: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 64 := N_2; omega)

end Region2

end Cert.Kernel.Hand

end
-- ==== Proof.K.Run.lean ====
/-
  The run of the whole program: two host operations (the transposes of the weight matrices), region 0, region 1, five
  host operations (the sum of the row sums, its broadcast, the division and the rounding), region 2. Between two
  segments every core holds each of its unscoped buffers whole at named contents — a fold from the launch memory:
  a host stretch leaves what its operations compute, a region leaves its arrays at what its write-backs fold to and
  every other buffer as entered. The final state therefore has every unscoped buffer at the last valuation of the
  fold, and the four argument arrays, which no segment writes, read back through the fold to the launch memory.
-/
import proofs.«161805_j76459007803804_1_alg».proof.Proof.K.R0
import proofs.«161805_j76459007803804_1_alg».proof.Proof.K.R1
import proofs.«161805_j76459007803804_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit, the end of the program. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### No host operation writes an argument -/

theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1⟩))

theorem W4_of_arg (c : Dev nD) (b : Ref sig .tc) (h0 : b ≠ main_cst) (h1 : b ≠ main_v4) (h2 : b ≠ main_v5) (h3 : b ≠ main_v6) (h4 : b ≠ main_v7) :
    W4 m ρ c (Proc.devRef .tc b) = W3 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-! ### The arguments end as launched: a region reads an argument through an input window or bypasses it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_arg m ρ c main_arg0 (by decide) (by decide) (by decide) (by decide) (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_arg m ρ c main_arg1 (by decide) (by decide) (by decide) (by decide) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_arg m ρ c main_arg2 (by decide) (by decide) (by decide) (by decide) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 0).trans (((dat2 (V4 m ρ) c).arrAt_in 0 rfl _).trans (A_eq2 (V4 m ρ) c 0))
    _ = W3 m ρ c (Proc.devRef .tc main_arg3) := W4_of_arg m ρ c main_arg3 (by decide) (by decide) (by decide) (by decide) (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh' : (hostOps0 : List (HloOp τ sig (Elt F))).Forall fun op => op.fresh = ∅ := by
  simp only [List.Forall]; repeat' constructor
/-- No operation of the second stretch allocates a buffer. -/
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at W1, left at W2. Its arrays split out of the
    unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. The generator register and
    the scoped buffers no window stages (the two accumulators among them) go into the region's invariant and come
    back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5, the end of the program. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 5 segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last valuation of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame claim at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.Kernel.Hand

end
-- ==== Proof.KI.Defs.lean ====
/-
  What the three kernel regions of the idealized program compute, as pure functions of the buffer contents a region
  finds on entry. A window's block at a grid point is the part of its array the point's index map selects. Region 0
  maps a block of rows of `seq` to tanh of its product with each transposed weight matrix. Regions 1 and 2 walk an
  8 × 8 grid, point `t` at row block `t / 8` and contraction block `k = t % 8`; each keeps accumulators in
  scratch that it resets at `k = 0` and to which every point adds its block's contribution, so that after the point
  with `k = 7` the accumulator of a row block holds the sum over all eight contraction blocks.
-/
import proofs.«161805_j76459007803804_1_alg».proof.Proof.Gen.KernelIdeal.Skeleton
import proofs.«161805_j76459007803804_1_alg».proof.Proof.Gen.KernelIdeal.Launch
import proofs.«161805_j76459007803804_1_alg».proof.Proof.Gen.KernelIdeal.Points

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block of region 1 at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window `w`'s block of region 2 at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 1's two accumulators after point `n`: the weighted sum of value rows and the row sums of the
    coefficients, over the contraction blocks `0 … n % 8` of the point's row block. -/
def acc1 (c : Dev nD) : (n : ℕ) → n < cfg1.N → Vec F S1024x128 .f32 × Vec F S1024x1 .f32
  | 0, hn =>
    (k1_pay6 (iblk1 V c 0 ⟨0, hn⟩) (iblk1 V c 1 ⟨0, hn⟩) (iblk1 V c 2 ⟨0, hn⟩) (k1_pay1 (F := F)),
     k1_pay5 (iblk1 V c 0 ⟨0, hn⟩) (iblk1 V c 1 ⟨0, hn⟩) (iblk1 V c 2 ⟨0, hn⟩) (k1_pay2 (F := F)))
  | n + 1, hn =>
    if (n + 1) % 8 = 0 then
      (k1_pay6 (iblk1 V c 0 ⟨n + 1, hn⟩) (iblk1 V c 1 ⟨n + 1, hn⟩) (iblk1 V c 2 ⟨n + 1, hn⟩) (k1_pay1 (F := F)),
       k1_pay5 (iblk1 V c 0 ⟨n + 1, hn⟩) (iblk1 V c 1 ⟨n + 1, hn⟩) (iblk1 V c 2 ⟨n + 1, hn⟩) (k1_pay2 (F := F)))
    else
      (k1_pay6 (iblk1 V c 0 ⟨n + 1, hn⟩) (iblk1 V c 1 ⟨n + 1, hn⟩) (iblk1 V c 2 ⟨n + 1, hn⟩) (acc1 c n (Nat.lt_of_succ_lt hn)).1,
       k1_pay5 (iblk1 V c 0 ⟨n + 1, hn⟩) (iblk1 V c 1 ⟨n + 1, hn⟩) (iblk1 V c 2 ⟨n + 1, hn⟩) (acc1 c n (Nat.lt_of_succ_lt hn)).2)

/-- Region 2's accumulator after point `n`: the product of the bias rows with the normalised values, over the
    contraction blocks `0 … n % 8` of the point's row block. -/
def acc2 (c : Dev nD) : (n : ℕ) → n < cfg2.N → Vec F S1024x128 .f32
  | 0, hn => k2_pay2 (iblk2 V c 0 ⟨0, hn⟩) (iblk2 V c 1 ⟨0, hn⟩) (k2_pay1 (F := F))
  | n + 1, hn =>
    if (n + 1) % 8 = 0 then
      k2_pay2 (iblk2 V c 0 ⟨n + 1, hn⟩) (iblk2 V c 1 ⟨n + 1, hn⟩) (k2_pay1 (F := F))
    else
      k2_pay2 (iblk2 V c 0 ⟨n + 1, hn⟩) (iblk2 V c 1 ⟨n + 1, hn⟩) (acc2 c n (Nat.lt_of_succ_lt hn))

/-- At a point that opens a row block the accumulators start from zero. -/
theorem acc1_reset (c : Dev nD) (t : Fin cfg1.N) (h : t.val % 8 = 0) :
    acc1 V c t.val t.isLt =
      (k1_pay6 (iblk1 V c 0 t) (iblk1 V c 1 t) (iblk1 V c 2 t) (k1_pay1 (F := F)),
       k1_pay5 (iblk1 V c 0 t) (iblk1 V c 1 t) (iblk1 V c 2 t) (k1_pay2 (F := F))) := by
  obtain ⟨n, hn⟩ := t
  cases n with
  | zero => rfl
  | succ n => exact if_pos h

/-- At any other point they add the point's contribution to what the point before left. -/
theorem acc1_step (c : Dev nD) (t : Fin cfg1.N) (h : ¬t.val % 8 = 0) :
    acc1 V c t.val t.isLt =
      (k1_pay6 (iblk1 V c 0 t) (iblk1 V c 1 t) (iblk1 V c 2 t) (acc1 V c (t.val - 1) (Nat.lt_of_le_of_lt (Nat.sub_le _ _) t.isLt)).1,
       k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd (Nat.zero_mod _) h
  | succ n => exact if_neg h

theorem acc2_reset (c : Dev nD) (t : Fin cfg2.N) (h : t.val % 8 = 0) :
    acc2 V c t.val t.isLt = k2_pay2 (iblk2 V c 0 t) (iblk2 V c 1 t) (k2_pay1 (F := F)) := by
  obtain ⟨n, hn⟩ := t
  cases n with
  | zero => rfl
  | succ n => exact if_pos h

theorem acc2_step (c : Dev nD) (t : Fin cfg2.N) (h : ¬t.val % 8 = 0) :
    acc2 V c t.val t.isLt =
      k2_pay2 (iblk2 V c 0 t) (iblk2 V c 1 t) (acc2 V c (t.val - 1) (Nat.lt_of_le_of_lt (Nat.sub_le _ _) t.isLt)) := by
  obtain ⟨n, hn⟩ := t
  cases n with
  | zero => exact absurd (Nat.zero_mod _) h
  | succ n => exact if_neg h

end Cert.KernelIdeal.Hand

end
-- ==== Proof.KI.R0.lean ====
/-
  Region 0 of the program: the projection kernel, a grid of 8 points. At a point it reads a block of 1024 rows of the
  sequence and the two transposed weight matrices (fetched once, at the first point, and found in place afterwards),
  and writes, whole, the two output blocks: tanh of the block's product with each weight matrix, rounded to bf16.
  Nothing is carried from point to point, so the invariant is the plain one and what a point leaves in each output
  window is a closed function of the three input blocks at the point.
-/
import proofs.«161805_j76459007803804_1_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows hold their blocks at every point -/

/-- Input window 0's current staging buffer holds its block at every point, for any proof data whose array is the
    entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (fetched at the first point only): where it is not fetched its block index has not moved, so the
    buffer still holds the point's block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2, likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one is the whole buffer -/

abbrev r0_a : Rect S1024x512 := Rect.unit (s := S1024x512) ![0, 0] S1024x512.size inb_S1024x512_S1024x512_0_0
abbrev r0_w : Rect S512x128 := Rect.unit (s := S512x128) ![0, 0] S512x128.size inb_S512x128_S512x128_0_0
abbrev r0_o : Rect S1024x128 := Rect.unit (s := S1024x128) ![0, 0] S1024x128.size inb_S1024x128_S1024x128_0_0

/-- The offset of every access is the origin. -/
theorem off_zero : (![0, 0] : Fin 2 → ℕ) = fun _ => 0 := by
  funext a; fin_cases a <;> rfl

/-- One store through the whole-buffer rectangle covers the buffer. -/
theorem cover0_o (p0 : Vec F S1024x128 .bf16) (y : S1024x128.Idx) :
    ∃ pc ∈ ([⟨r0_o, p0⟩] : List (View.Piece (Elt F) S1024x128 .bf16)), y ∈ pc.1.set :=
  View.cover_of_tiled [⟨r0_o, p0⟩] S1024x128.size (by rfl) y

/-- What the one store leaves is its payload, and the payload reads the input buffers whole. -/
theorem out0_3_eq (x0 : Vec F S1024x512 .f32) (x1 : Vec F S512x128 .f32) :
    View.canon [(⟨r0_o, k0_pay2 (View.ld x0 r0_a) (View.ld x1 r0_w)⟩ : View.Piece (Elt F) S1024x128 .bf16)] = k0_pay2 x0 x1 := by
  rw [View.canon_unit_zero off_zero]
  simp only [View.ld_unit_zero (S := S1024x512) off_zero, View.ld_unit_zero (S := S512x128) off_zero]

theorem out0_4_eq (x0 : Vec F S1024x512 .f32) (x2 : Vec F S512x128 .f32) :
    View.canon [(⟨r0_o, k0_pay3 (View.ld x0 r0_a) (View.ld x2 r0_w)⟩ : View.Piece (Elt F) S1024x128 .bf16)] = k0_pay3 x0 x2 := by
  rw [View.canon_unit_zero off_zero]
  simp only [View.ld_unit_zero (S := S1024x512) off_zero, View.ld_unit_zero (S := S512x128) off_zero]

/-! ## The body's triple -/

set_option maxHeartbeats 1000000 in
/-- The kernel body on whole staging memrefs, the inputs' at read contents and the outputs' at anything, runs to the
    continuation holding the inputs' as they were and each output's at its payload of the inputs. -/
theorem sound_kernel0 (c : Dev nD) (E : Set ℕ) (i : grid0.Coords)
    (arg1 : Memref sig .tc .vmem S1024x512 .f32) (harg1 : arg1.IsWhole)
    (arg2 : Memref sig .tc .vmem S512x128 .f32) (harg2 : arg2.IsWhole)
    (arg3 : Memref sig .tc .vmem S512x128 .f32) (harg3 : arg3.IsWhole)
    (arg4 : Memref sig .tc .vmem S1024x128 .bf16) (harg4 : arg4.IsWhole)
    (arg5 : Memref sig .tc .vmem S1024x128 .bf16) (harg5 : arg5.IsWhole)
    (x0 : Vec F S1024x512 .f32) (x1 x2 : Vec F S512x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay2 x0 x1) ∗ owns (c : Thread nD τ) arg5 fullShare (k0_pay3 x0 x2)) -∗ K ⟨⟩))
      ⊢ wp frame (wpE (defs₀ (F := F)) Variants.none c none) E (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (cover0_o _)).trans (out0_3_eq _ _)
  iexists _; isplitr
  swap; · iexact H4
  ipureintro
  exact (View.read_writes_eq_canon _ _ _ (cover0_o _)).trans (out0_4_eq _ _)

/-! ## The pipeline's proof data -/

/-- The proof data of pipeline 0 on core c: the arrays as the region finds them; after the body at point t each
    input's buffer at its block and each output's at its payload of the input blocks; the plain invariant (the scoped
    rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 1 t)
    | ⟨4, _⟩ => k0_pay3 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (iblk0 V c 0 t) (iblk0 V c 1 t) := by dsimp only [dat0]
theorem after0_4 (c : Dev nD) (t : Fin cfg0.N) : (dat0 V c).after 4 t = k0_pay3 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point and after the last is the plain one. -/
theorem hin0 (c : Dev nD) : Pipeline.ΦA spec0 c ⊢ ((dat0 V c).Φ 0 : sProp 𝕄) := .rfl
theorem hout0 (c : Dev nD) : ((dat0 V c).Φ (Fin.last cfg0.N) : sProp 𝕄) ⊢ Pipeline.ΦA spec0 c := .rfl

end Cert.KernelIdeal.Hand

end
-- ==== Proof.KI.R2K.lean ====
/-
  Region 2 of the program, its body run case by case. The body keeps an accumulator in scratch: at a point that
  opens a row block it zeroes it, at every point it adds the product of the point's bias block with the point's block
  of normalised values, and at the point that closes the row block it copies the accumulator to the output's
  staging buffer. Here: the two conditionals in closed form over the grid, where the output window is idle, and the
  body's triple in each of the three cases, every buffer at named contents.
-/
import proofs.«161805_j76459007803804_1_alg».proof.Proof.KI.Defs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of region 2's body (the accumulator is zeroed), over the grid coordinates. -/
abbrev cond2_0 (i : grid2.Coords) : Prop := (Scalar.cmpi .ne (Scalar.extui (Scalar.cmpi .eq (BitVec.ofNat 32 (i 1).val) 0#32)) 0#32) = 1#1
/-- It holds exactly at the points that open a row block. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second conditional (the accumulator is copied to the output). -/
abbrev cond2_1 (i : grid2.Coords) : Prop := k2_cond2 i = 1#1
/-- It holds exactly at the points that close a row block. -/
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle; the output is idle, and not written back, exactly where the copy is not taken. -/
theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
theorem liveAt2_2 : ∀ t : Fin cfg2.N, cond2_1 (grid2.coords t) → cfg2.idle 2 (grid2.coords t) = false := by decide +kernel

/-- The zero offsets of a rank-2 whole-buffer access. -/
theorem hz2 : (![0, 0] : Fin 2 → ℕ) = fun _ => 0 := by funext a; fin_cases a <;> rfl

/-- A buffer whose last store went through the whole-shape rectangle at offset zero reads as that store's payload,
    whatever the earlier stores and the contents before them. -/
theorem read_writes_cons_unit_zero {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h]

/-! ## The body's triple, case by case -/

set_option maxHeartbeats 1000000 in
/-- At a point that opens a row block: the accumulator is zeroed, then the point's product is added to it;
    the output's buffer is not touched. -/
theorem sound_kernel2_A (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : cond2_0 i) (hc1 : ¬cond2_1 i)
    (x0 : Vec F S1024x1024 .f32) (x1 : Vec F S1024x128 .bf16) (xi : Vec F S1024x128 .f32) (K : PUnit → sProp 𝕄) :
    iprop(owns (c : Thread nD τ) arg2 fullShare x0 ∗ owns (c : Thread nD τ) arg3 fullShare x1 ∗ owns (c : Thread nD τ) arg4 fullShare xi
        ∗ (∃ d, owns (c : Thread nD τ) arg5 fullShare d)
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 (k2_pay1 (F := F)))) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%f2, %hf2, H2⟩, ⟨%ds, %fs, -, HS⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2, View.readCov_unit_zero (S := S1024x128) _ hz2]

set_option maxHeartbeats 1000000 in
/-- At a point inside a row block: the point's product is added to the accumulator; the output's buffer is not
    touched. -/
theorem sound_kernel2_B (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : ¬cond2_0 i) (hc1 : ¬cond2_1 i)
    (x0 : Vec F S1024x1024 .f32) (x1 : Vec F S1024x128 .bf16) (xi : Vec F S1024x128 .f32) (xs : Vec F S1024x128 .f32) (K : PUnit → sProp 𝕄) :
    iprop(owns (c : Thread nD τ) arg2 fullShare x0 ∗ owns (c : Thread nD τ) arg3 fullShare x1 ∗ owns (c : Thread nD τ) arg4 fullShare xi
        ∗ owns (c : Thread nD τ) arg5 fullShare xs
        ∗ (iprop(owns (c : Thread nD τ) arg2 fullShare x0 ∗ owns (c : Thread nD τ) arg3 fullShare x1 ∗ owns (c : Thread nD τ) arg4 fullShare xi
            ∗ owns (c : Thread nD τ) arg5 fullShare (k2_pay2 x0 x1 xs)) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%f2, %hf2, H2⟩, ⟨%fs, %hfs, HS⟩, Hk⟩
  subst hf0; subst hf1; subst hf2; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2]

set_option maxHeartbeats 1000000 in
/-- At a point that closes a row block: the point's product is added to the accumulator, which is then copied
    whole to the output's buffer (whatever that held). -/
theorem sound_kernel2_C (c : Dev nD) (E : Set ℕ) (i : grid2.Coords) (arg2 : Memref sig .tc .vmem S1024x1024 .f32) (harg2 : arg2.IsWhole) (arg3 : Memref sig .tc .vmem S1024x128 .bf16) (harg3 : arg3.IsWhole) (arg4 : Memref sig .tc .vmem S1024x128 .f32) (harg4 : arg4.IsWhole) (arg5 : Memref sig .tc .vmem S1024x128 .f32) (harg5 : arg5.IsWhole)
    (hc0 : ¬cond2_0 i) (hc1 : cond2_1 i)
    (x0 : Vec F S1024x1024 .f32) (x1 : Vec F S1024x128 .bf16) (xs : Vec F S1024x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs)
            ∗ owns (c : Thread nD τ) arg5 fullShare (k2_pay2 x0 x1 xs)) -∗ K ⟨⟩))
      ⊢ wp frame (wpE (defs₀ (F := F)) Variants.none c none) E (cc2__bias_matmul_kernel i arg2 harg2 arg3 harg3 arg4 harg4 arg5 harg5) K := by
  simp only [cc2__bias_matmul_kernel_eq_skeleton]; unfold cc2__bias_matmul_kernel_skel
  unfold owns
  iintro ⟨⟨%f0, %hf0, H0⟩, ⟨%f1, %hf1, H1⟩, ⟨%d2, %f2, -, H2⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [read_writes_cons_unit_zero (S := S1024x128) _ _ hz2]
    simp only [View.readAt_eq_ld, View.ld_unit_zero (S := S1024x1024) hz2, View.ld_unit_zero (S := S1024x128) hz2, View.readCov_unit_zero (S := S1024x128) _ hz2]
  iexists _; isplitr
  swap; · iexact HS
  ipureintro
  sl_unfold_run_names
  rw [read_writes_cons_unit_zero (S := S1024x128) _ _ hz2]
  simp only [View.readAt_eq_ld, View.ld_unit_zero (S := S1024x1024) hz2, View.ld_unit_zero (S := S1024x128) hz2]

end Cert.KernelIdeal.Hand

end
-- ==== Proof.KI.R1K.lean ====
/-
  Region 1 of the program, its body run case by case. The body keeps two accumulators in scratch — the weighted sum
  of value rows and the row sums of the coefficients: at a point that opens a row block it zeroes both, at every point
  it adds the point's contributions, and at the point that closes the row block it copies both to the outputs'
  staging buffers. Here: the two conditionals in closed form over the grid, where the output windows are idle, and
  the body's triple in each of the three cases, every buffer at named contents.
-/
import proofs.«161805_j76459007803804_1_alg».proof.Proof.KI.R2K

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional of region 1's body (the accumulators are zeroed), over the grid coordinates. -/
abbrev cond1_0 (i : grid1.Coords) : Prop := (Scalar.cmpi .ne (Scalar.extui (Scalar.cmpi .eq (BitVec.ofNat 32 (i 1).val) 0#32)) 0#32) = 1#1
/-- It holds exactly at the points that open a row block. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional (the accumulators are copied to the outputs). -/
abbrev cond1_1 (i : grid1.Coords) : Prop := k1_cond2 i = 1#1
/-- It holds exactly at the points that close a row block. -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle; each output is idle, and not written back, exactly where the copy is not taken. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The body's triple, case by case -/

set_option maxHeartbeats 2000000 in
/-- At a point that opens a row block: both accumulators are zeroed, then the point's contributions are added;
    the outputs' buffers are not touched. -/
theorem sound_kernel1_A (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : cond1_0 i) (hc1 : ¬cond1_1 i)
    (x0 : Vec F S1024x128 .bf16) (x1 : Vec F S1024x128 .bf16) (x2 : Vec F S1024x1024 .f32)
    (xi3 : Vec F S1024x128 .f32) (xi4 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay6 x0 x1 x2 (k1_pay1 (F := F)))
            ∗ owns (c : Thread nD τ) arg8 fullShare (k1_pay5 x0 x1 x2 (k1_pay2 (F := F)))) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

set_option maxHeartbeats 2000000 in
/-- At a point inside a row block: the point's contributions are added to the accumulators; the outputs' buffers are
    not touched. -/
theorem sound_kernel1_B (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : ¬cond1_0 i) (hc1 : ¬cond1_1 i)
    (x0 : Vec F S1024x128 .bf16) (x1 : Vec F S1024x128 .bf16) (x2 : Vec F S1024x1024 .f32)
    (xi3 : Vec F S1024x128 .f32) (xi4 : Vec F S1024x1 .f32) (xs0 : Vec F S1024x128 .f32) (xs1 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xi4
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4
            ∗ owns (c : Thread nD τ) arg7 fullShare (k1_pay6 x0 x1 x2 xs0)
            ∗ owns (c : Thread nD τ) arg8 fullShare (k1_pay5 x0 x1 x2 xs1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  subst hf0; subst hf1; subst hf2; subst hf3; subst hf4; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

set_option maxHeartbeats 2000000 in
/-- At a point that closes a row block: the point's contributions are added to the accumulators, which are then
    copied whole to the outputs' buffers (whatever those held). -/
theorem sound_kernel1_C (c : Dev nD) (E : Set ℕ) (i : grid1.Coords) (arg2 : Memref sig .tc .vmem S1024x128 .bf16) (harg2 : arg2.IsWhole) (arg3 : Memref sig .tc .vmem S1024x128 .bf16) (harg3 : arg3.IsWhole) (arg4 : Memref sig .tc .vmem S1024x1024 .f32) (harg4 : arg4.IsWhole) (arg5 : Memref sig .tc .vmem S1024x128 .f32) (harg5 : arg5.IsWhole) (arg6 : Memref sig .tc .vmem S1024x1 .f32) (harg6 : arg6.IsWhole) (arg7 : Memref sig .tc .vmem S1024x128 .f32) (harg7 : arg7.IsWhole) (arg8 : Memref sig .tc .vmem S1024x1 .f32) (harg8 : arg8.IsWhole)
    (hc0 : ¬cond1_0 i) (hc1 : cond1_1 i)
    (x0 : Vec F S1024x128 .bf16) (x1 : Vec F S1024x128 .bf16) (x2 : Vec F S1024x1024 .f32)
    (xs0 : Vec F S1024x128 .f32) (xs1 : Vec F S1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg2 fullShare x0 ∗ owns (c : Thread nD τ) arg3 fullShare x1 ∗ owns (c : Thread nD τ) arg4 fullShare x2
            ∗ owns (c : Thread nD τ) arg5 fullShare (k1_pay6 x0 x1 x2 xs0) ∗ owns (c : Thread nD τ) arg6 fullShare (k1_pay5 x0 x1 x2 xs1)
            ∗ owns (c : Thread nD τ) arg7 fullShare (k1_pay6 x0 x1 x2 xs0)
            ∗ owns (c : Thread nD τ) arg8 fullShare (k1_pay5 x0 x1 x2 xs1)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  isplitl [H4]
  · iexists _; isplitr
    swap; · iexact H4
    ipureintro
    sl_unfold_run_names
    rw [read_writes_cons_unit_zero (S := S1024x1) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  isplitl [HS0]
  · iexists _; isplitr
    swap; · iexact HS0
    ipureintro
    sl_unfold_run_names
    rw [read_writes_cons_unit_zero (S := S1024x128) _ _ hz2]
    simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]
  iexists _; isplitr
  swap; · iexact HS1
  ipureintro
  sl_unfold_run_names
  rw [read_writes_cons_unit_zero (S := S1024x1) _ _ hz2]
  simp only [View.readAt_eq_ld, View.ld_unit_zero (S := S1024x1024) hz2, View.ld_unit_zero (S := S1024x128) hz2, View.ld_unit_zero (S := S1024x1) hz2, View.readCov_unit_zero (S := S1024x128) _ hz2, View.readCov_unit_zero (S := S1024x1) _ hz2]

end Cert.KernelIdeal.Hand

end
-- ==== Proof.KI.R1.lean ====
/-
  Region 1 of the program: its half of the frame. The invariant carries the two accumulators from point to point at
  the contents the recursion `acc1` names; the proof data state each input's buffer at its block and each output's at
  its accumulator; the body obligation follows from the three case triples by the point's position in its row block.
-/
import proofs.«161805_j76459007803804_1_alg».proof.Proof.KI.R1K

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The accumulators, component by component -/

theorem acc1_reset_fst (c : Dev nD) (t : Fin cfg1.N) (h : t.val % 8 = 0) :
    (acc1 V c t.val t.isLt).1 = k1_pay6 (iblk1 V c 0 t) (iblk1 V c 1 t) (iblk1 V c 2 t) (k1_pay1 (F := F)) := by
  rw [acc1_reset V c t h]
theorem acc1_reset_snd (c : Dev nD) (t : Fin cfg1.N) (h : t.val % 8 = 0) :
    (acc1 V c t.val t.isLt).2 = k1_pay5 (iblk1 V c 0 t) (iblk1 V c 1 t) (iblk1 V c 2 t) (k1_pay2 (F := F)) := by
  rw [acc1_reset V c t h]
theorem acc1_step_fst (c : Dev nD) (t : Fin cfg1.N) (h : ¬t.val % 8 = 0) :
    (acc1 V c t.val t.isLt).1 = k1_pay6 (iblk1 V c 0 t) (iblk1 V c 1 t) (iblk1 V c 2 t) (acc1 V c (t.val - 1) (Nat.lt_of_le_of_lt (Nat.sub_le _ _) t.isLt)).1 := by
  rw [acc1_step V c t h]
theorem acc1_step_snd (c : Dev nD) (t : Fin cfg1.N) (h : ¬t.val % 8 = 0) :
    (acc1 V c t.val t.isLt).2 = k1_pay5 (iblk1 V c 0 t) (iblk1 V c 1 t) (iblk1 V c 2 t) (acc1 V c (t.val - 1) (Nat.lt_of_le_of_lt (Nat.sub_le _ _) t.isLt)).2 := by
  rw [acc1_step V c t h]

/-! ## The inputs' buffers hold their blocks -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant: the accumulators at their named contents -/

/-- The accumulators as memrefs: the two whole scratch buffers. -/
abbrev scM1_0 : Memref sig .tc .vmem S1024x128 .f32 := Memref.whole cc1_scratch0
abbrev scM1_1 : Memref sig .tc .vmem S1024x1 .f32 := Memref.whole cc1_scratch1

/-- Every scoped buffer of the core that is neither a staging buffer of the region nor one of its accumulators, each
    at some contents. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The scoped rest, split at the accumulators. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f)) ∗ rest1 c) :=
  Pipeline.scopedRest_split_of_list spec1 c [cc1_scratch0, cc1_scratch1] (by decide) (by decide)

/-- What the launch hands the region, with the accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 c) ∗ (∃ r, prngReg c r)) := by
  unfold Pipeline.ΦA; rw [scopedRest1_split]; simp only [scM1_0, scM1_1, owns_whole]; try rfl

/-- The region's invariant before position `n`: before the first point what the launch hands over; afterwards the
    accumulators at what the point before left in them, the other scoped buffers at anything, the generator register
    at some state. -/
def Phi1 (c : Dev nD) : (n : ℕ) → n ≤ cfg1.N → sProp 𝕄
  | 0, _ => Pipeline.ΦA spec1 c
  | n + 1, hn => iprop(iprop(iprop(owns (c : Thread nD τ) scM1_0 fullShare (acc1 V c n hn).1 ∗ owns (c : Thread nD τ) scM1_1 fullShare (acc1 V c n hn).2) ∗ rest1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) scM1_0 fullShare (acc1 V c n hn).1 ∗ owns (c : Thread nD τ) scM1_1 fullShare (acc1 V c n hn).2) ∗ rest1 c) ∗ (∃ r, prngReg c r)) := rfl

theorem Phi1_pos (c : Dev nD) (n : ℕ) (h : n ≤ cfg1.N) (hz : n ≠ 0) :
    Phi1 V c n h = iprop(iprop(iprop(owns (c : Thread nD τ) scM1_0 fullShare (acc1 V c (n - 1) (by omega)).1 ∗ owns (c : Thread nD τ) scM1_1 fullShare (acc1 V c (n - 1) (by omega)).2) ∗ rest1 c) ∗ (∃ r, prngReg c r)) := by
  cases n with
  | zero => exact absurd rfl hz
  | succ n => rfl

/-! ## The proof data -/

/-- The proof data of the region on core `c`: the arrays as the region finds them; after the body at point `t` each
    input's buffer at its block and each output's at its accumulator's contents there; the invariant above; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (acc1 V c t.val t.isLt).1
    | ⟨4, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (acc1 V c t.val t.isLt).1 := by dsimp only [dat1]
theorem after1_4 (c : Dev nD) (t : Fin cfg1.N) : (dat1 V c).after 4 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' buffers hold their blocks; the point's position in its row block selects the
    case; the invariant hands the body the accumulators at what the point before left (at anything where the row
    block opens) and takes them back at this point's contents; where the row block does not close the outputs'
    buffers are handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h1 : t.val % 8 = 7
  · have h0 : ¬t.val % 8 = 0 := by omega
    have hz : t.val ≠ 0 := by omega
    rw [show (dat1 V c).leavesExact 3 t = owns (c : Thread nD τ) (st1_3 t) fullShare ((dat1 V c).after 3 t) from by
      unfold Dat.leavesExact; rw [liveAt1_3 t ((hcond1_1 t).mpr h1)], after1_3]
    rw [show (dat1 V c).leavesExact 4 t = owns (c : Thread nD τ) (st1_4 t) fullShare ((dat1 V c).after 4 t) from by
      unfold Dat.leavesExact; rw [liveAt1_4 t ((hcond1_1 t).mpr h1)], after1_4]
    rw [acc1_step_fst V c t h0, acc1_step_snd V c t h0]
    rw [Phi1_castSucc V c t, Phi1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel1_C c Set.univ (grid1.coords t) _ _ _ _ _ _ _ _ _ _ _ _ _ _ (fun h => h0 ((hcond1_0 t).mp h)) ((hcond1_1 t).mpr h1) (iblk1 V c 0 t) (iblk1 V c 1 t) (iblk1 V c 2 t) _ _ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 3 t (idleAt1_3 t (fun h => h1 ((hcond1_1 t).mp h))) (noFlush1_3 t (fun h => h1 ((hcond1_1 t).mp h)))]
    rw [Dat.leavesExact_idle (dat1 V c) 4 t (idleAt1_4 t (fun h => h1 ((hcond1_1 t).mp h))) (noFlush1_4 t (fun h => h1 ((hcond1_1 t).mp h)))]
    by_cases h0 : t.val % 8 = 0
    · rw [acc1_reset_fst V c t h0, acc1_reset_snd V c t h0]
      by_cases hz : t.val = 0
      · rw [Phi1_castSucc V c t, Phi1_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, HS0, HS1⟩
        isplitl [HS0 HS1 HR Hg]
        · isplitl [HS0 HS1 HR]
          · isplitl [HS0 HS1]
            · isplitl [HS0]; · iexact HS0
              iexact HS1
            iexact HR
          iexact Hg
        isplitl [Ho]; · iexact Ho
        isplitl [H0]; · iexact H0
        isplitl [H1]; · iexact H1
        isplitl [H2]; · iexact H2
        isplitl [H3]; · iexists _; iexact H3
        iexists _; iexact H4
      · rw [Phi1_castSucc V c t, Phi1_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply (sound_kernel1_A c Set.univ (grid1.coords t) _ _ _ _ _ _ _ _ _ _ _ _ _ _ ((hcond1_0 t).mpr h0) (fun h => h1 ((hcond1_1 t).mp h)) (iblk1 V c 0 t) (iblk1 V c 1 t) (iblk1 V c 2 t) _ _ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, HS0, HS1⟩
        isplitl [HS0 HS1 HR Hg]
        · isplitl [HS0 HS1 HR]
          · isplitl [HS0 HS1]
            · isplitl [HS0]; · iexact HS0
              iexact HS1
            iexact HR
          iexact Hg
        isplitl [Ho]; · iexact Ho
        isplitl [H0]; · iexact H0
        isplitl [H1]; · iexact H1
        isplitl [H2]; · iexact H2
        isplitl [H3]; · iexists _; iexact H3
        iexists _; iexact H4
    · have hz : t.val ≠ 0 := fun e => h0 (by rw [e])
      rw [acc1_step_fst V c t h0, acc1_step_snd V c t h0]
      rw [Phi1_castSucc V c t, Phi1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel1_B c Set.univ (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any point the invariant gives back what the launch handed over: the accumulators' contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.KernelIdeal.Hand

end
-- ==== Proof.KI.R2.lean ====
/-
  Region 2 of the program: its half of the frame. The invariant carries the accumulator from point to point at the
  contents the recursion `acc2` names; the proof data state each input's buffer at its block and the output's at the
  accumulator; the body obligation follows from the three case triples by the point's position in its row block.
-/
import proofs.«161805_j76459007803804_1_alg».proof.Proof.KI.R2K

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2
-- the TensorCore's buffer contents when the region is entered
variable (V : (c : Dev nD) → (b : Ref sig .tc) → Buf (Elt F) ((c : Thread nD τ).loc b))

/-! ## The inputs' buffers hold their blocks -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The invariant: the accumulator at its named contents -/

/-- The accumulator as a memref: the whole scratch buffer. -/
abbrev scM2 : Memref sig .tc .vmem S1024x128 .f32 := Memref.whole cc2_scratch0

/-- Every scoped buffer of the core that is neither a staging buffer of the region nor its accumulator, each at some
    contents. -/
abbrev rest2 (c : Dev nD) : sProp 𝕄 :=
  Pipeline.scopedRestBut (Ix := Unit) (Name := ℕ) (U := UR sig nD τ) (Lvl := ℕ) (Val := Elt F) spec2 c [cc2_scratch0]

/-- The scoped rest, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ rest2 c) :=
  Pipeline.scopedRest_split_of_list spec2 c [cc2_scratch0] (by decide) (by decide)

/-- What the launch hands the region, with the accumulator as a memref owned at some contents. -/
theorem PhiA2_eq (c : Dev nD) :
    (Pipeline.ΦA spec2 c : sProp 𝕄)
      = iprop(iprop((∃ d, owns (c : Thread nD τ) scM2 fullShare d) ∗ rest2 c) ∗ (∃ r, prngReg c r)) := by
  unfold Pipeline.ΦA; rw [scopedRest2_split]; simp only [scM2, owns_whole]; try rfl

/-- The region's invariant before position `n`: before the first point what the launch hands over; afterwards the
    accumulator at what the point before left in it, the other scoped buffers at anything, the generator register at
    some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ rest2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ rest2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ rest2 c) ∗ (∃ r, prngReg c r)) := by
  cases n with
  | zero => exact absurd rfl hz
  | succ n => rfl

/-! ## The proof data -/

/-- The proof data of the region on core `c`: the arrays as the region finds them; after the body at point `t` each
    input's buffer at its block and the output's at the accumulator's contents there; the invariant above; nothing
    owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the point's position in its row block selects the
    case; the invariant hands the body the accumulator at what the point before left (at anything where the row block
    opens) and takes it back at this point's contents; where the row block does not close the output's buffer is
    handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  have hN : t.val < 64 := lt_of_lt_of_eq t.isLt (show cfg2.N = 64 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  by_cases h1 : t.val % 8 = 7
  · have h0 : ¬t.val % 8 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h1)], after2_2]
    rw [acc2_step V c t h0]
    rw [Phi2_castSucc V c t, Phi2_pos V c _ _ hz]
    iintro ⟨⟨⟨HS, HR⟩, Hg⟩, Ho, ⟨%d0, H0⟩, ⟨%d1, H1⟩, ⟨%d2, H2⟩⟩
    iapply (sound_kernel2_C c Set.univ (grid2.coords t) _ _ _ _ _ _ _ _ (fun h => h0 ((hcond2_0 t).mp h)) ((hcond2_1 t).mpr h1) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 8 = 0
    · rw [acc2_reset V c t h0]
      by_cases hz : t.val = 0
      · rw [Phi2_castSucc V c t, Phi2_zero V c _ _ hz, PhiA2_eq]
        iintro ⟨⟨⟨HS, HR⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS]; · iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
      · rw [Phi2_castSucc V c t, Phi2_pos V c _ _ hz]
        iintro ⟨⟨⟨HS, HR⟩, Hg⟩, Ho, ⟨%d0, H0⟩, ⟨%d1, H1⟩, ⟨%d2, H2⟩⟩
        iapply (sound_kernel2_A c Set.univ (grid2.coords t) _ _ _ _ _ _ _ _ ((hcond2_0 t).mpr h0) (fun h => h1 ((hcond2_1 t).mp h)) (iblk2 V c 0 t) (iblk2 V c 1 t) _ _)
        isplitl [H0]; · iexact H0
        isplitl [H1]; · iexact H1
        isplitl [H2]; · iexact H2
        isplitl [HS]; · iexists _; iexact HS
        iintro ⟨H0, H1, H2, HS⟩
        isplitl [HS HR Hg]
        · isplitl [HS HR]
          · isplitl [HS]; · iexact HS
            iexact HR
          iexact Hg
        isplitl [Ho]; · iexact Ho
        isplitl [H0]; · iexact H0
        isplitl [H1]; · iexact H1
        iexists _; iexact H2
    · have hz : t.val ≠ 0 := fun e => h0 (by rw [e])
      rw [acc2_step V c t h0]
      rw [Phi2_castSucc V c t, Phi2_pos V c _ _ hz]
      iintro ⟨⟨⟨HS, HR⟩, Hg⟩, Ho, ⟨%d0, H0⟩, ⟨%d1, H1⟩, ⟨%d2, H2⟩⟩
      iapply (sound_kernel2_B c Set.univ (grid2.coords t) _ _ _ _ _ _ _ _ (fun h => h0 ((hcond2_0 t).mp h)) (fun h => h1 ((hcond2_1 t).mp h)) (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point the invariant gives back what the launch handed over: the accumulator's contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, HR⟩, Hg⟩
  isplitl [HS HR]
  · isplitl [HS]; · iexists _; iexact HS
    iexact HR
  iexact Hg

theorem hout2 (c : Dev nD) : (dat2 V c).Φ (Fin.last cfg2.N) ⊢ Pipeline.ΦA spec2 c :=
  Phi2_out V c _ (by rw [Fin.val_last]; have : cfg2.N = 64 := N_2; omega)

end Region2

end Cert.KernelIdeal.Hand

end
-- ==== Proof.KI.Run.lean ====
/-
  The run of the whole program: two host operations (the transposes of the weight matrices), region 0, region 1, five
  host operations (the sum of the row sums, its broadcast, the division and the rounding), region 2. Between two
  segments every core holds each of its unscoped buffers whole at named contents — a fold from the launch memory:
  a host stretch leaves what its operations compute, a region leaves its arrays at what its write-backs fold to and
  every other buffer as entered. The final state therefore has every unscoped buffer at the last valuation of the
  fold, and the four argument arrays, which no segment writes, read back through the fold to the launch memory.
-/
import proofs.«161805_j76459007803804_1_alg».proof.Proof.KI.R0
import proofs.«161805_j76459007803804_1_alg».proof.Proof.KI.R1
import proofs.«161805_j76459007803804_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core c's buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit (region 1's entry): its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit, the end of the program. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### No host operation writes an argument -/

theorem W1_of_arg (c : Dev nD) (b : Ref sig .tc) (h0 : b ≠ main_v0) (h1 : b ≠ main_v1) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1⟩))

theorem W4_of_arg (c : Dev nD) (b : Ref sig .tc) (h0 : b ≠ main_cst) (h1 : b ≠ main_v4) (h2 : b ≠ main_v5) (h3 : b ≠ main_v6) (h4 : b ≠ main_v7) :
    W4 m ρ c (Proc.devRef .tc b) = W3 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h0, StableHlo.devRef_ne_of_ne h1, StableHlo.devRef_ne_of_ne h2, StableHlo.devRef_ne_of_ne h3, StableHlo.devRef_ne_of_ne h4⟩))

/-! ### The arguments end as launched: a region reads an argument through an input window or bypasses it -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_arg m ρ c main_arg0 (by decide) (by decide) (by decide) (by decide) (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_arg m ρ c main_arg0 (by decide) (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_arg m ρ c main_arg1 (by decide) (by decide) (by decide) (by decide) (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_arg m ρ c main_arg1 (by decide) (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_arg m ρ c main_arg2 (by decide) (by decide) (by decide) (by decide) (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_arg m ρ c main_arg2 (by decide) (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := (W5_arr m ρ c 0).trans (((dat2 (V4 m ρ) c).arrAt_in 0 rfl _).trans (A_eq2 (V4 m ρ) c 0))
    _ = W3 m ρ c (Proc.devRef .tc main_arg3) := W4_of_arg m ρ c main_arg3 (by decide) (by decide) (by decide) (by decide) (by decide)
    _ = W2 m ρ c (Proc.devRef .tc main_arg3) := (W3_arr m ρ c 2).trans (((dat1 (V2 m ρ) c).arrAt_in 2 rfl _).trans (A_eq1 (V2 m ρ) c 2))
    _ = W1 m ρ c (Proc.devRef .tc main_arg3) := W2_of_ne m ρ c main_arg3 (by decide)
    _ = W0 m ρ c (Proc.devRef .tc main_arg3) := W1_of_arg m ρ c main_arg3 (by decide) (by decide)
    _ = m ((c : Thread nD τ).loc main_arg3) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts,
    at nothing. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of the first stretch allocates a buffer. -/
theorem hostOps0_fresh' : (hostOps0 : List (HloOp τ sig (Elt F))).Forall fun op => op.fresh = ∅ := by
  simp only [List.Forall]; repeat' constructor
/-- No operation of the second stretch allocates a buffer. -/
theorem hostOps2_fresh' : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at W1, left at W2. Its arrays split out of the
    unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W2, left at W3. The generator register and
    the scoped buffers no window stages (the two accumulators among them) go into the region's invariant and come
    back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W4, left at W5, the end of the program. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 5 segments in order. -/
abbrev segs : List (Pipeline.Seg (pcfgs (F := F)) adm (pdats m ρ) () defs₀ 𝒱₀ L lv) :=
  [ .host (hseg hostOps0 hostOps0_sub hostOps0_fresh' (W0 m ρ)),
    .region (reg0 m ρ),
    .region (reg1 m ρ),
    .host (hseg hostOps2 hostOps2_sub hostOps2_fresh' (W3 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the TensorCores terminates,
    nothing faulting, and in every final state each core's unscoped buffers hold the last valuation of the fold. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame claim at any float instance: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.KI.Val0.lean ====
/-
  What region 0 leaves in its two output arrays, at the ideal values: the block a grid point writes back is that
  block of rows of one whole-array function — tanh of the rows of the sequence times the columns of a transposed
  weight matrix — and the eight blocks tile the array, so the array ends holding that function.
-/
import proofs.«161805_j76459007803804_1_alg».proof.Proof.KI.R0
import proofs.«161805_j76459007803804_1_alg».proof.Proof.LibPlainMatmul
import Idealize.ShloMosaic.Lib.Pipeline.Value

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Finset

variable (V : (c : Dev nD) → (b : Ref sig .tc) → Buf (Elt Ideal) ((c : Thread nD τ).loc b))

/-- tanh of rows of `A` times columns of `B`. -/
def proj (A : S8192x512.Idx → EReal) (B : S512x128.Idx → EReal) : S8192x128.Idx → EReal :=
  fun i => Ideal.tanh (∑ k : Fin 512, A (ix2 (i 0) k) * B (ix2 k (i 1)))

/-- The projection payload at an index: tanh of a row of the block times a column of the weights. -/
theorem k0_pay2_apply (x0 : Vec Ideal S1024x512 .f32) (x1 : Vec Ideal S512x128 .f32) (p : Fin 1024) (e : Fin 128) :
    k0_pay2 x0 x1 (ix2 p e) = Ideal.tanh (∑ k : Fin 512, x0 (ix2 p k) * x1 (ix2 k e)) := by
  show Ideal.tanh (FloatOps.matmul (F := Ideal) (DotDims.plain 1024 512 128) none (truncf (F := Ideal) .bf16 x0 bitsLt_bf16_f32)
    (truncf (F := Ideal) .bf16 (shapeCast S512x128 x1 shapeCasts_S512x128_S512x128) bitsLt_bf16_f32) (constant (F := Ideal) S1024x128 .f32 0x00000000#32) (ix2 p e)) = _
  rw [matmul_plain_zero_apply]
  refine congrArg Ideal.tanh (sum_congr rfl fun k _ => ?_)
  rw [shapeCast_self]
  rfl

theorem k0_pay3_apply (x0 : Vec Ideal S1024x512 .f32) (x1 : Vec Ideal S512x128 .f32) (p : Fin 1024) (e : Fin 128) :
    k0_pay3 x0 x1 (ix2 p e) = Ideal.tanh (∑ k : Fin 512, x0 (ix2 p k) * x1 (ix2 k e)) := by
  show Ideal.tanh (FloatOps.matmul (F := Ideal) (DotDims.plain 1024 512 128) none (truncf (F := Ideal) .bf16 x0 bitsLt_bf16_f32)
    (truncf (F := Ideal) .bf16 (shapeCast S512x128 x1 shapeCasts_S512x128_S512x128) bitsLt_bf16_f32) (constant (F := Ideal) S1024x128 .f32 0x00000000#32) (ix2 p e)) = _
  rw [matmul_plain_zero_apply]
  refine congrArg Ideal.tanh (sum_congr rfl fun k _ => ?_)
  rw [shapeCast_self]
  rfl

/-- The printed index maps over the grid: the row block of the sequence and of both outputs is the point; the weights
    are one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem flushed0_3_eq (c : Dev nD) (t : Fin cfg0.N) :
    (dat0 V c).flushed 3 t = ((cfg0.win 3).blk t).view.read (Elt Ideal) (proj (V c main_arg0) (V c main_v0)) := by
  show (cfg0.win 3).cut (grid0.coords t) ((dat0 V c).after 3 t) = _
  rw [after0_3]
  obtain ⟨e00, e01, e10, e11, e20, e21, e30, e31, e40, e41⟩ := idx_facts0 t
  funext j
  show k0_pay2 (iblk0 V c 0 t) (iblk0 V c 1 t) j = proj (V c main_arg0) (V c main_v0) (((cfg0.win 3).blk t).view.emb j)
  refine (congrArg (k0_pay2 (iblk0 V c 0 t) (iblk0 V c 1 t)) (eq_ix2 j)).trans ?_
  refine (k0_pay2_apply (iblk0 V c 0 t) (iblk0 V c 1 t) (j 0) (j 1)).trans ?_
  unfold proj
  refine congrArg Ideal.tanh (sum_congr rfl fun k _ => ?_)
  have h0 : iblk0 V c 0 t (ix2 (j 0) k) = V c main_arg0 (ix2 ((((cfg0.win 3).blk t).view.emb j) 0) k) := by
    show V c main_arg0 (((cfg0.win 0).blk t).view.emb (ix2 (j 0) k)) = _
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 512 + 1 * k.val = k.val; omega
  have h1 : iblk0 V c 1 t (ix2 k (j 1)) = V c main_v0 (ix2 k ((((cfg0.win 3).blk t).view.emb j) 1)) := by
    show V c main_v0 (((cfg0.win 1).blk t).view.emb (ix2 k (j 1))) = _
    refine congrArg _ (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_3.index t (1 : Fin 2) * 128 + 1 * (j 1).val; omega
  rw [h0, h1]

theorem flushed0_4_eq (c : Dev nD) (t : Fin cfg0.N) :
    (dat0 V c).flushed 4 t = ((cfg0.win 4).blk t).view.read (Elt Ideal) (proj (V c main_arg0) (V c main_v1)) := by
  show (cfg0.win 4).cut (grid0.coords t) ((dat0 V c).after 4 t) = _
  rw [after0_4]
  obtain ⟨e00, e01, e10, e11, e20, e21, e30, e31, e40, e41⟩ := idx_facts0 t
  funext j
  show k0_pay3 (iblk0 V c 0 t) (iblk0 V c 2 t) j = proj (V c main_arg0) (V c main_v1) (((cfg0.win 4).blk t).view.emb j)
  refine (congrArg (k0_pay3 (iblk0 V c 0 t) (iblk0 V c 2 t)) (eq_ix2 j)).trans ?_
  refine (k0_pay3_apply (iblk0 V c 0 t) (iblk0 V c 2 t) (j 0) (j 1)).trans ?_
  unfold proj
  refine congrArg Ideal.tanh (sum_congr rfl fun k _ => ?_)
  have h0 : iblk0 V c 0 t (ix2 (j 0) k) = V c main_arg0 (ix2 ((((cfg0.win 4).blk t).view.emb j) 0) k) := by
    show V c main_arg0 (((cfg0.win 0).blk t).view.emb (ix2 (j 0) k)) = _
    refine congrArg _ (funext fun a => Fin.ext ?_)
    match a with
    | ⟨0, _⟩ => show win0_0.index t (0 : Fin 2) * 1024 + 1 * (j 0).val = win0_4.index t (0 : Fin 2) * 1024 + 1 * (j 0).val; omega
    | ⟨1, _⟩ => show win0_0.index t (1 : Fin 2) * 512 + 1 * k.val = k.val; omega
  have h1 : iblk0 V c 2 t (ix2 k (j 1)) = V c main_v1 (ix2 k ((((cfg0.win 4).blk t).view.emb j) 1)) := by
    show V c main_v1 (((cfg0.win 2).blk t).view.emb (ix2 k (j 1))) = _
    refine congrArg _ (funext fun a => Fin.ext ?_)
    match a with
    | ⟨0, _⟩ => show win0_2.index t (0 : Fin 2) * 512 + 1 * k.val = k.val; omega
    | ⟨1, _⟩ => show win0_2.index t (1 : Fin 2) * 128 + 1 * (j 1).val = win0_4.index t (1 : Fin 2) * 128 + 1 * (j 1).val; omega
  rw [h0, h1]

/-- An index of an output array is in point `t`'s block iff each coordinate is in the block's range on its axis. -/
theorem mem_blk0_3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v2_0).slice (win0_3.rect t)).set ↔ _
  rw [View.set_slice_whole, Rect.mem_set_unit]
  exact Iff.rfl

theorem mem_blk0_4 (t : Fin cfg0.N) (i : S8192x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v2_1).slice (win0_4.rect t)).set ↔ _
  rw [View.set_slice_whole, Rect.mem_set_unit]
  exact Iff.rfl

/-- Row `r` lies in the block of point `r / 1024`. -/
theorem cover0_3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have ht : (i 0).val / 1024 < cfg0.N := by rw [show cfg0.N = 8 from N_0]; omega
  refine ⟨⟨(i 0).val / 1024, ht⟩, flush0_3 _, ?_⟩
  rw [mem_blk0_3]
  obtain ⟨-, -, -, -, -, -, e30, e31, -, -⟩ := idx_facts0 ⟨(i 0).val / 1024, ht⟩
  have e30' : win0_3.index ⟨(i 0).val / 1024, ht⟩ (0 : Fin 2) = (i 0).val / 1024 := e30
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    omega
  | ⟨1, _⟩ =>
    show win0_3.index ⟨(i 0).val / 1024, ht⟩ (1 : Fin 2) * 128 ≤ (i 1).val ∧ (i 1).val < win0_3.index ⟨(i 0).val / 1024, ht⟩ (1 : Fin 2) * 128 + 128
    omega

theorem cover0_4 (i : S8192x128.Idx) : ∃ t : Fin cfg0.N, (cfg0.win 4).flush t = true ∧ i ∈ ((cfg0.win 4).blk t).view.set := by
  have hi0 : (i 0).val < 8192 := (i 0).isLt
  have hi1 : (i 1).val < 128 := (i 1).isLt
  have ht : (i 0).val / 1024 < cfg0.N := by rw [show cfg0.N = 8 from N_0]; omega
  refine ⟨⟨(i 0).val / 1024, ht⟩, flush0_4 _, ?_⟩
  rw [mem_blk0_4]
  obtain ⟨-, -, -, -, -, -, -, -, e40, e41⟩ := idx_facts0 ⟨(i 0).val / 1024, ht⟩
  have e40' : win0_4.index ⟨(i 0).val / 1024, ht⟩ (0 : Fin 2) = (i 0).val / 1024 := e40
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    omega
  | ⟨1, _⟩ =>
    show win0_4.index ⟨(i 0).val / 1024, ht⟩ (1 : Fin 2) * 128 ≤ (i 1).val ∧ (i 1).val < win0_4.index ⟨(i 0).val / 1024, ht⟩ (1 : Fin 2) * 128 + 128
    omega

/-- After region 0 its first output array holds the projection by the first weight matrix, -/
theorem final0_3 (c : Dev nD) : (dat0 V c).arrAt 3 cfg0.N = proj (V c main_arg0) (V c main_v0) :=
  (dat0 V c).arrAt_eq_of_cover 3 _ (fun t _ => flushed0_3_eq V c t) cover0_3

/-- and its second the projection by the second. -/
theorem final0_4 (c : Dev nD) : (dat0 V c).arrAt 4 cfg0.N = proj (V c main_arg0) (V c main_v1) :=
  (dat0 V c).arrAt_eq_of_cover 4 _ (fun t _ => flushed0_4_eq V c t) cover0_4

end Cert.KernelIdeal.HandValue

end
-- ==== Proof.LibMatmulRhsT.lean ====
/-
  A matrix product that contracts BOTH operands' last axes, read at an index, at the ideal values.

  For an [A, K] matrix times a [B, K] matrix contracting the left operand's columns with the right operand's columns
  (the product of the first with the transpose of the second, written without forming the transpose) a `tpu.matmul`
  into the zero accumulator is, at (p, m), the sum over k of L(p, k) · R(m, k): a sum indexed by `Fin K`, with both
  operands read at indices written by coordinates. The contraction index of the library's general statement is
  re-indexed through its one coordinate, and the operand indices it names are computed axis by axis.
-/
import Idealize.ShloMosaic.PureOps.Ideal.Laws
import Idealize.ShloMosaic.Lib.ValueIdx

noncomputable section

namespace Cert.LibMatmulRhsT

open Idealize.ShloMosaic Idealize.ShloMosaic.ValueIdx

/-- For an [A, K] by [B, K] product contracting both last axes, the left operand's index at result (p, m) and
    contraction coordinate k is (p, k). -/
theorem transposedRhs_lhsIdx (A K B : Nat) (p : Fin A) (m : Fin B) (k : Fin K) :
    (DotDims.transposedRhs A K B).lhsIdx (ix2 p m) ((contrEquiv1 (DotDims.transposedRhs A K B) K rfl rfl).symm k) = ix2 p k :=
  funext fun a => Fin.ext (by
    match a with
    | ⟨0, _⟩ => rfl
    | ⟨1, _⟩ =>
      exact ((DotDims.transposedRhs A K B).lhsIdx_val_of_single (cl := 1) rfl _ _).trans
        (contrEquiv1_symm_val (DotDims.transposedRhs A K B) K rfl rfl k))

/-- The right operand's index there is (m, k). -/
theorem transposedRhs_rhsIdx (A K B : Nat) (p : Fin A) (m : Fin B) (k : Fin K) :
    (DotDims.transposedRhs A K B).rhsIdx (ix2 p m) ((contrEquiv1 (DotDims.transposedRhs A K B) K rfl rfl).symm k) = ix2 m k :=
  funext fun a => Fin.ext (by
    match a with
    | ⟨0, _⟩ => rfl
    | ⟨1, _⟩ =>
      exact ((DotDims.transposedRhs A K B).rhsIdx_val_of_single (cr := 1) rfl _ _).trans
        (contrEquiv1_symm_val (DotDims.transposedRhs A K B) K rfl rfl k))

/-- An [A, K] by [B, K] product contracting both last axes, into the zero accumulator, read at (p, m):
    Σ_k L(p, k) · R(m, k). -/
theorem matmul_transposedRhs_zero_apply (A K B : Nat) {φ₁ φ₂ : FTy} (prec : Option ContractPrecision)
    (lhs : FVec Ideal ⟨2, ![A, K]⟩ φ₁) (rhs : FVec Ideal ⟨2, ![B, K]⟩ φ₂) (p : Fin A) (m : Fin B) :
    FloatOps.matmul (DotDims.transposedRhs A K B) prec lhs rhs (constant ⟨2, ![A, B]⟩ .f32 0x00000000#32) (ix2 p m)
      = ∑ k : Fin K, lhs (ix2 p k) * rhs (ix2 m k) := by
  rw [Ideal.matmul_constant_zero_apply, ← Equiv.sum_comp (contrEquiv1 (DotDims.transposedRhs A K B) K rfl rfl).symm]
  refine Finset.sum_congr rfl fun k _ => ?_
  rw [transposedRhs_lhsIdx, transposedRhs_rhsIdx]

end Cert.LibMatmulRhsT

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibTileSum.lean ====
/-
  A double sum over a matrix cut into equal tiles. An index `r < A * a` is `i * a + p` for one tile row `i < A`
  and one offset `p < a` inside it, so a sum over `r` is the sum over `i` of the sums over `p`; for two axes the
  sum over all entries of an `(A·a) × (B·b)` matrix is the sum over the `A × B` tiles of each tile's entries.
  Also the same for a tile counter: `t < A * B` read as row `t / B` and column `t % B` of the tile grid.
  Values in any commutative additive monoid (on the extended reals no finiteness is needed).
-/
import Mathlib.Algebra.BigOperators.Fin
import Mathlib.Logic.Equiv.Fin.Basic

namespace TileSum

open Finset

variable {M : Type*} [AddCommMonoid M]

/-- Offset `p` of tile `i` is below the whole extent. -/
theorem tile_lt {A a : ℕ} (i : Fin A) (p : Fin a) : i.val * a + p.val < A * a := by
  have h1 : i.val * a + p.val < i.val * a + a := Nat.add_lt_add_left p.isLt _
  have h2 : i.val * a + a ≤ A * a := by
    rw [← Nat.succ_mul]; exact Nat.mul_le_mul_right a i.isLt
  exact lt_of_lt_of_le h1 h2

/-- The index of offset `p` of tile `i` along an axis of extent `R = A * a`. -/
def idx {R A a : ℕ} (h : A * a = R) (i : Fin A) (p : Fin a) : Fin R := ⟨i.val * a + p.val, h ▸ tile_lt i p⟩

@[simp] theorem idx_val {R A a : ℕ} (h : A * a = R) (i : Fin A) (p : Fin a) : (idx h i p).val = i.val * a + p.val := rfl

/-- One axis: the sum over the axis is the sum over the tiles of the sums inside each tile. -/
theorem sum_axis {R A a : ℕ} (h : A * a = R) (g : Fin R → M) :
    ∑ r, g r = ∑ i : Fin A, ∑ p : Fin a, g (idx h i p) := by
  subst h
  rw [← Equiv.sum_comp finProdFinEquiv g, Fintype.sum_prod_type]
  refine sum_congr rfl fun i _ => sum_congr rfl fun p _ => congrArg g (Fin.ext ?_)
  show p.val + a * i.val = i.val * a + p.val
  rw [Nat.mul_comm, Nat.add_comm]

/-- Two axes: the sum over all entries is the sum over the tiles of the sums over each tile's entries. -/
theorem sum_matrix {R C A a B b : ℕ} (hR : A * a = R) (hC : B * b = C) (f : Fin R → Fin C → M) :
    ∑ r, ∑ c, f r c = ∑ i : Fin A, ∑ j : Fin B, ∑ p : Fin a, ∑ q : Fin b, f (idx hR i p) (idx hC j q) := by
  have h1 : ∀ r : Fin R, ∑ c, f r c = ∑ j : Fin B, ∑ q : Fin b, f r (idx hC j q) := fun r => sum_axis hC (f r)
  calc ∑ r, ∑ c, f r c = ∑ r, ∑ j : Fin B, ∑ q : Fin b, f r (idx hC j q) := sum_congr rfl fun r _ => h1 r
    _ = ∑ i : Fin A, ∑ p : Fin a, ∑ j : Fin B, ∑ q : Fin b, f (idx hR i p) (idx hC j q) :=
        sum_axis hR (fun r => ∑ j : Fin B, ∑ q : Fin b, f r (idx hC j q))
    _ = ∑ i : Fin A, ∑ j : Fin B, ∑ p : Fin a, ∑ q : Fin b, f (idx hR i p) (idx hC j q) :=
        sum_congr rfl fun i _ => sum_comm

/-- A tile counter `t < A * B`, row-major: the sum over `t` of a function of its row `t / B` and column `t % B` is
    the double sum over the rows and columns. -/
theorem sum_counter {N A B : ℕ} (h : A * B = N) (g : Fin A → Fin B → M) (row : Fin N → Fin A) (col : Fin N → Fin B)
    (hrow : ∀ t, (row t).val = t.val / B) (hcol : ∀ t, (col t).val = t.val % B) :
    ∑ t, g (row t) (col t) = ∑ i : Fin A, ∑ j : Fin B, g i j := by
  rw [sum_axis h (fun t => g (row t) (col t))]
  refine sum_congr rfl fun i _ => sum_congr rfl fun j _ => ?_
  have hB : 0 < B := Nat.pos_of_ne_zero fun e => by have := j.isLt; omega
  have e1 : row (idx h i j) = i := Fin.ext (by
    rw [hrow, idx_val, Nat.add_comm, Nat.add_mul_div_right _ _ hB, Nat.div_eq_of_lt j.isLt, Nat.zero_add])
  have e2 : col (idx h i j) = j := Fin.ext (by
    rw [hcol, idx_val, Nat.add_comm, Nat.add_mul_mod_self_right, Nat.mod_eq_of_lt j.isLt])
  rw [e1, e2]

end TileSum
-- ==== Proof.KI.Val1.lean ====
/-
  What region 1 leaves in its two output arrays, at the ideal values. With Q the query features, K the key and value
  features and B the bias matrix as the region finds them, the coefficient of query row i against key row k is
      C(i, k) = exp ((Σ_j Q(i, j) · K(k, j)) · σ) · B(i, k),
  and the region leaves  Σ_k C(i, k) · K(k, e)  in the first array and the row sums  Σ_k C(i, k)  in the second, both
  over all 8192 key rows.

  The region walks an 8 × 8 grid; point t works on query row block t / 8 and key row block t % 8. Its two accumulators
  are reset at t % 8 = 0; at every point the first gains the point's [1024, 1024] coefficient block times the key
  block's values and the second the coefficient block's row sums. After the point with t % 8 = 7 they hold the sums
  over the eight key blocks s and the 1024 offsets q — over k = 1024·s + q, the whole rows. That point writes them
  back to row block t / 8 of the arrays, and the eight row blocks tile each array.
-/
import proofs.«161805_j76459007803804_1_alg».proof.Proof.KI.Defs
import proofs.«161805_j76459007803804_1_alg».proof.Proof.LibPlainMatmul
import proofs.«161805_j76459007803804_1_alg».proof.Proof.LibMatmulRhsT
import proofs.«161805_j76459007803804_1_alg».proof.Proof.LibKeepdims
import proofs.«161805_j76459007803804_1_alg».proof.Proof.LibTileSum
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Finset

/-! ## The payloads at an index -/

/-- The exponential of a vector is the exponential of each entry. -/
theorem k1_exp_apply {s : Shape} {φ : FTy} (a : FVec Ideal s φ) (i : s.Idx) : exp a i = Ideal.exp (a i) := rfl

/-- The scale the logits are multiplied by. -/
abbrev scale1 : EReal := Ideal.ofBits .f32 0x3DB504F3#32

/-- Both accumulators' reset values are zero everywhere. -/
theorem k1_pay1_apply (i : S1024x128.Idx) : (k1_pay1 (F := Ideal)) i = 0 := by
  unfold k1_pay1
  simp only [shapeCast_self, broadcast_apply]
  exact Ideal.ofBits_zero_f32

theorem k1_pay2_apply (i : S1024x1.Idx) : (k1_pay2 (F := Ideal)) i = 0 := by
  unfold k1_pay2
  simp only [shapeCast_self, broadcast_apply]
  exact Ideal.ofBits_zero_f32

/-- A point's coefficient block at (p, q): the exponential of the scaled product of the query row p with the key row q,
    times the bias entry. -/
theorem k1_pay4_apply (v3 v5 : Vec Ideal S1024x128 .bf16) (v10 : Vec Ideal S1024x1024 .f32) (p q : Fin 1024) :
    k1_pay4 v3 v5 v10 (ix2 p q)
      = Ideal.exp ((∑ j : Fin 128, v3 (ix2 p j) * v5 (ix2 q j)) * scale1) * v10 (ix2 p q) := by
  unfold k1_pay4 k1_pay3
  simp only [shapeCast_self]
  rw [mulf_apply, k1_exp_apply, mulf_apply, broadcast_apply]
  congr 2
  congr 1
  exact Cert.LibMatmulRhsT.matmul_transposedRhs_zero_apply 1024 128 1024 none _ _ p q

/-- The row-sum accumulator's step at a row: what was accumulated plus the sum of the row's coefficients. -/
theorem k1_pay5_apply (v3 v5 : Vec Ideal S1024x128 .bf16) (v10 : Vec Ideal S1024x1024 .f32) (v13 : Vec Ideal S1024x1 .f32)
    (p : Fin 1024) (u : Fin 1) :
    k1_pay5 v3 v5 v10 v13 (ix2 p u) = v13 (ix2 p u) + ∑ q : Fin 1024, k1_pay4 v3 v5 v10 (ix2 p q) := by
  unfold k1_pay5
  simp only [shapeCast_self]
  rw [addf_apply]
  congr 1
  exact (Cert.LibKeepdims.shapeCast_a_a1_apply _ _ p u).trans
    (Cert.LibKeepdims.multiReduction_add_lastAxis_apply _ _ _ _ _ p)

/-- The value accumulator's step at (p, e): what was accumulated plus the row's coefficients against the value column. -/
theorem k1_pay6_apply (v3 v5 : Vec Ideal S1024x128 .bf16) (v10 : Vec Ideal S1024x1024 .f32) (v20 : Vec Ideal S1024x128 .f32)
    (p : Fin 1024) (e : Fin 128) :
    k1_pay6 v3 v5 v10 v20 (ix2 p e) = v20 (ix2 p e) + ∑ q : Fin 1024, k1_pay4 v3 v5 v10 (ix2 p q) * v5 (ix2 q e) := by
  unfold k1_pay6 k1_pay3
  simp only [shapeCast_self]
  rw [addf_apply]
  congr 1
  exact matmul_plain_zero_apply 1024 1024 128 none _ _ p e

/-! ## The same at any index of the block -/

/-- The value accumulator's addend of a point at an index of the block. -/
def dot1_3 (x0 x1 : Vec Ideal S1024x128 .bf16) (x2 : Vec Ideal S1024x1024 .f32) (i : S1024x128.Idx) : EReal :=
  ∑ q : Fin 1024, k1_pay4 x0 x1 x2 (ix2 (i 0) q) * x1 (ix2 q (i 1))

/-- The row-sum accumulator's addend of a point at an index of the block. -/
def dot1_4 (x0 x1 : Vec Ideal S1024x128 .bf16) (x2 : Vec Ideal S1024x1024 .f32) (i : S1024x1.Idx) : EReal :=
  ∑ q : Fin 1024, k1_pay4 x0 x1 x2 (ix2 (i 0) q)

theorem k1_pay6_apply' (x0 x1 : Vec Ideal S1024x128 .bf16) (x2 : Vec Ideal S1024x1024 .f32) (acc : Vec Ideal S1024x128 .f32)
    (i : S1024x128.Idx) : k1_pay6 x0 x1 x2 acc i = acc i + dot1_3 x0 x1 x2 i := by
  obtain ⟨p, e, rfl⟩ : ∃ (p : Fin 1024) (e : Fin 128), i = ix2 p e := ⟨i 0, i 1, eq_ix2 i⟩
  exact k1_pay6_apply x0 x1 x2 acc p e

theorem k1_pay5_apply' (x0 x1 : Vec Ideal S1024x128 .bf16) (x2 : Vec Ideal S1024x1024 .f32) (acc : Vec Ideal S1024x1 .f32)
    (i : S1024x1.Idx) : k1_pay5 x0 x1 x2 acc i = acc i + dot1_4 x0 x1 x2 i := by
  obtain ⟨p, u, rfl⟩ : ∃ (p : Fin 1024) (u : Fin 1), i = ix2 p u := ⟨i 0, i 1, eq_ix2 i⟩
  exact k1_pay5_apply x0 x1 x2 acc p u

/-! ## The windows' block indices, decided over the grid -/

theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val / 8 ∧ win1_3.index t (1 : Fin 2) = 0
    ∧ win1_4.index t (0 : Fin 2) = t.val / 8 ∧ win1_4.index t (1 : Fin 2) = 0 :=
  (by decide +kernel : ∀ t : Fin grid1.N, _)

theorem lt64_1 (t : Fin cfg1.N) : t.val < 64 := lt_of_lt_of_eq t.isLt N_1

variable (V : (c : Dev nD) → (b : Ref sig .tc) → Buf (Elt Ideal) ((c : Thread nD τ).loc b))

/-- The query features, the key and value features and the bias matrix, as region 1 finds them. -/
abbrev Q1 (c : Dev nD) : S8192x128.Idx → EReal := V c main_v2_1
abbrev K1 (c : Dev nD) : S8192x128.Idx → EReal := V c main_v2_0
abbrev B1 (c : Dev nD) : S8192x8192.Idx → EReal := V c main_arg3

/-- A block of a window read at a block index is its array at the block's place. -/
theorem iblk1_0_apply (c : Dev nD) (t : Fin cfg1.N) (p : Fin 1024) (j : Fin 128) (row : Fin 8192) (col : Fin 128)
    (hr : row.val = (t.val / 8) * 1024 + p.val) (hc : col.val = j.val) :
    iblk1 V c 0 t (ix2 p j) = Q1 V c (ix2 row col) := by
  obtain ⟨e0, e1, -⟩ := idx_facts1 t
  show V c main_v2_1 (((cfg1.win 0).blk t).view.emb (ix2 p j)) = _
  congr 1
  funext a; apply Fin.ext
  match a with
  | ⟨0, _⟩ => show win1_0.index t (0 : Fin 2) * 1024 + 1 * p.val = row.val; omega
  | ⟨1, _⟩ => show win1_0.index t (1 : Fin 2) * 128 + 1 * j.val = col.val; omega

theorem iblk1_1_apply (c : Dev nD) (t : Fin cfg1.N) (q : Fin 1024) (j : Fin 128) (row : Fin 8192) (col : Fin 128)
    (hr : row.val = (t.val % 8) * 1024 + q.val) (hc : col.val = j.val) :
    iblk1 V c 1 t (ix2 q j) = K1 V c (ix2 row col) := by
  obtain ⟨-, -, e0, e1, -⟩ := idx_facts1 t
  show V c main_v2_0 (((cfg1.win 1).blk t).view.emb (ix2 q j)) = _
  congr 1
  funext a; apply Fin.ext
  match a with
  | ⟨0, _⟩ => show win1_1.index t (0 : Fin 2) * 1024 + 1 * q.val = row.val; omega
  | ⟨1, _⟩ => show win1_1.index t (1 : Fin 2) * 128 + 1 * j.val = col.val; omega

theorem iblk1_2_apply (c : Dev nD) (t : Fin cfg1.N) (p q : Fin 1024) (row col : Fin 8192)
    (hr : row.val = (t.val / 8) * 1024 + p.val) (hc : col.val = (t.val % 8) * 1024 + q.val) :
    iblk1 V c 2 t (ix2 p q) = B1 V c (ix2 row col) := by
  obtain ⟨-, -, -, -, e0, e1, -⟩ := idx_facts1 t
  show V c main_arg3 (((cfg1.win 2).blk t).view.emb (ix2 p q)) = _
  congr 1
  funext a; apply Fin.ext
  match a with
  | ⟨0, _⟩ => show win1_2.index t (0 : Fin 2) * 1024 + 1 * p.val = row.val; omega
  | ⟨1, _⟩ => show win1_2.index t (1 : Fin 2) * 1024 + 1 * q.val = col.val; omega

/-- The coefficient of query row i against key row k. -/
def C1 (c : Dev nD) (i k : Fin 8192) : EReal :=
  Ideal.exp ((∑ j : Fin 128, Q1 V c (ix2 i j) * K1 V c (ix2 k j)) * scale1) * B1 V c (ix2 i k)

/-- A point's coefficient block is the coefficient matrix at the block's place. -/
theorem coef1_apply (c : Dev nD) (t : Fin cfg1.N) (p q : Fin 1024) (row k : Fin 8192)
    (hr : row.val = (t.val / 8) * 1024 + p.val) (hk : k.val = (t.val % 8) * 1024 + q.val) :
    k1_pay4 (iblk1 V c 0 t) (iblk1 V c 1 t) (iblk1 V c 2 t) (ix2 p q) = C1 V c row k := by
  rw [k1_pay4_apply]; unfold C1
  rw [iblk1_2_apply V c t p q row k hr hk]
  congr 2
  congr 1
  refine sum_congr rfl fun j _ => ?_
  rw [iblk1_0_apply V c t p j row j hr rfl, iblk1_1_apply V c t q j k j hk rfl]

/-! ## The accumulators at a point are the sums of the addends of the row block's points so far -/

/-- The components of a fold of pairs whose step acts on each component by itself are the folds of the components. -/
theorem accAt_fst1 {α β : Type} {N : ℕ} (a1 : (n : ℕ) → n < N → α) (a2 : (n : ℕ) → n < N → β)
    (g1 : (n : ℕ) → n < N → α → α) (g2 : (n : ℕ) → n < N → β → β) (b : ℕ) :
    ∀ (j : ℕ) (h : b + j < N),
      (Pipeline.accAt (fun n h => (a1 n h, a2 n h)) (fun n h p => (g1 n h p.1, g2 n h p.2)) b j h).1 = Pipeline.accAt a1 g1 b j h
  | 0, _ => rfl
  | j + 1, h => by
    rw [Pipeline.accAt_succ, Pipeline.accAt_succ]
    show g1 _ _ (Pipeline.accAt (fun n h => (a1 n h, a2 n h)) (fun n h p => (g1 n h p.1, g2 n h p.2)) b j _).1 = _
    rw [accAt_fst1 a1 a2 g1 g2 b j]

theorem accAt_snd1 {α β : Type} {N : ℕ} (a1 : (n : ℕ) → n < N → α) (a2 : (n : ℕ) → n < N → β)
    (g1 : (n : ℕ) → n < N → α → α) (g2 : (n : ℕ) → n < N → β → β) (b : ℕ) :
    ∀ (j : ℕ) (h : b + j < N),
      (Pipeline.accAt (fun n h => (a1 n h, a2 n h)) (fun n h p => (g1 n h p.1, g2 n h p.2)) b j h).2 = Pipeline.accAt a2 g2 b j h
  | 0, _ => rfl
  | j + 1, h => by
    rw [Pipeline.accAt_succ, Pipeline.accAt_succ]
    show g2 _ _ (Pipeline.accAt (fun n h => (a1 n h, a2 n h)) (fun n h p => (g1 n h p.1, g2 n h p.2)) b j _).2 = _
    rw [accAt_snd1 a1 a2 g1 g2 b j]

/-- Point n's addends. -/
def M1_3 (c : Dev nD) (n : ℕ) (i : S1024x128.Idx) : EReal :=
  if h : n < cfg1.N then dot1_3 (iblk1 V c 0 ⟨n, h⟩) (iblk1 V c 1 ⟨n, h⟩) (iblk1 V c 2 ⟨n, h⟩) i else 0
def M1_4 (c : Dev nD) (n : ℕ) (i : S1024x1.Idx) : EReal :=
  if h : n < cfg1.N then dot1_4 (iblk1 V c 0 ⟨n, h⟩) (iblk1 V c 1 ⟨n, h⟩) (iblk1 V c 2 ⟨n, h⟩) i else 0

/-- The two accumulators' steps at a point. -/
def g1_3 (c : Dev nD) (n : ℕ) (h : n < cfg1.N) (prev : Vec Ideal S1024x128 .f32) : Vec Ideal S1024x128 .f32 :=
  k1_pay6 (iblk1 V c 0 ⟨n, h⟩) (iblk1 V c 1 ⟨n, h⟩) (iblk1 V c 2 ⟨n, h⟩) prev
def g1_4 (c : Dev nD) (n : ℕ) (h : n < cfg1.N) (prev : Vec Ideal S1024x1 .f32) : Vec Ideal S1024x1 .f32 :=
  k1_pay5 (iblk1 V c 0 ⟨n, h⟩) (iblk1 V c 1 ⟨n, h⟩) (iblk1 V c 2 ⟨n, h⟩) prev

theorem g1_3_apply (c : Dev nD) (n : ℕ) (h : n < cfg1.N) (acc : Vec Ideal S1024x128 .f32) (i : S1024x128.Idx) :
    g1_3 V c n h acc i = acc i + M1_3 V c n i := by
  unfold g1_3 M1_3; rw [k1_pay6_apply', dif_pos h]
theorem g1_4_apply (c : Dev nD) (n : ℕ) (h : n < cfg1.N) (acc : Vec Ideal S1024x1 .f32) (i : S1024x1.Idx) :
    g1_4 V c n h acc i = acc i + M1_4 V c n i := by
  unfold g1_4 M1_4; rw [k1_pay5_apply', dif_pos h]

/-- The pair of accumulators at a point is the fold of the pair of steps over its row block's points so far. -/
theorem acc1_accAt (c : Dev nD) (t : Fin cfg1.N) (hb : 8 * (t.val / 8) + t.val % 8 < cfg1.N) :
    acc1 V c t.val t.isLt
      = Pipeline.accAt (fun n h => (g1_3 V c n h (k1_pay1 (F := Ideal)), g1_4 V c n h (k1_pay2 (F := Ideal))))
          (fun n h p => (g1_3 V c n h p.1, g1_4 V c n h p.2)) (8 * (t.val / 8)) (t.val % 8) hb :=
  Pipeline.eq_accAt_of_mod (N := cfg1.N) (acc1 V c) 8
    (fun n h => (g1_3 V c n h (k1_pay1 (F := Ideal)), g1_4 V c n h (k1_pay2 (F := Ideal))))
    (fun n h p => (g1_3 V c n h p.1, g1_4 V c n h p.2))
    (fun n h h0 => acc1_reset V c ⟨n, h⟩ h0)
    (fun n h hne => acc1_step V c ⟨n + 1, h⟩ hne)
    (by decide) t.val t.isLt hb

theorem acc1_fold_3 (c : Dev nD) (t : Fin cfg1.N) (i : S1024x128.Idx) :
    (acc1 V c t.val t.isLt).1 i = ∑ s ∈ range (t.val % 8 + 1), M1_3 V c (8 * (t.val / 8) + s) i := by
  have hb : 8 * (t.val / 8) + t.val % 8 < cfg1.N := by rw [Nat.div_add_mod]; exact t.isLt
  rw [acc1_accAt V c t hb, accAt_fst1]
  have h2 := Pipeline.accAt_add_apply (N := cfg1.N) (ι := S1024x128.Idx) (β := EReal)
    (fun n h => g1_3 V c n h (k1_pay1 (F := Ideal))) (fun n h prev => g1_3 V c n h prev)
    (fun _ => 0) (M1_3 V c) (8 * (t.val / 8)) 7
    (fun h i => by rw [g1_3_apply, k1_pay1_apply])
    (fun n h acc i _ _ => g1_3_apply V c n h acc i)
    (t.val % 8) (by omega) hb i
  rw [h2, zero_add]

theorem acc1_fold_4 (c : Dev nD) (t : Fin cfg1.N) (i : S1024x1.Idx) :
    (acc1 V c t.val t.isLt).2 i = ∑ s ∈ range (t.val % 8 + 1), M1_4 V c (8 * (t.val / 8) + s) i := by
  have hb : 8 * (t.val / 8) + t.val % 8 < cfg1.N := by rw [Nat.div_add_mod]; exact t.isLt
  rw [acc1_accAt V c t hb, accAt_snd1]
  have h2 := Pipeline.accAt_add_apply (N := cfg1.N) (ι := S1024x1.Idx) (β := EReal)
    (fun n h => g1_4 V c n h (k1_pay2 (F := Ideal))) (fun n h prev => g1_4 V c n h prev)
    (fun _ => 0) (M1_4 V c) (8 * (t.val / 8)) 7
    (fun h i => by rw [g1_4_apply, k1_pay2_apply])
    (fun n h acc i _ _ => g1_4_apply V c n h acc i)
    (t.val % 8) (by omega) hb i
  rw [h2, zero_add]

/-! ## Blocks to the arrays -/

/-- What region 1 computes: the coefficients against the value features, and the coefficients' row sums. -/
def G1_3 (c : Dev nD) : S8192x128.Idx → EReal := fun i => ∑ k : Fin 8192, C1 V c (i 0) k * K1 V c (ix2 k (i 1))
def G1_4 (c : Dev nD) : S8192x1.Idx → EReal := fun i => ∑ k : Fin 8192, C1 V c (i 0) k

/-- An index of an output array is in point t's block iff each coordinate is in the block's range on its axis. -/
theorem mem_blk1_3 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v3_0).slice (win1_3.rect t)).set ↔ _
  rw [View.set_slice_whole, Rect.mem_set_unit]
  exact Iff.rfl

theorem mem_blk1_4 (t : Fin cfg1.N) (i : S8192x1.Idx) :
    i ∈ ((cfg1.win 4).blk t).view.set ↔ ∀ a : Fin 2, win1_4.index t a * S1024x1.size a ≤ (i a).val ∧ (i a).val < win1_4.index t a * S1024x1.size a + S1024x1.size a := by
  show i ∈ ((View.whole main_v3_1).slice (win1_4.rect t)).set ↔ _
  rw [View.set_slice_whole, Rect.mem_set_unit]
  exact Iff.rfl

/-- What the last point of a row block writes back to the first output is that row block of the coefficients against
    the value features. -/
theorem flushed1_3_eq (c : Dev nD) (dat : Dat τ (Elt Ideal) Unit ℕ (UR sig nD τ) ℕ cfg1 c)
    (hafter : ∀ t, dat.after 3 t = (acc1 V c t.val t.isLt).1) (t : Fin cfg1.N) (hf : (cfg1.win 3).flush t = true) :
    dat.flushed 3 t = ((cfg1.win 3).blk t).view.read (Elt Ideal) (G1_3 V c) := by
  have h7 : t.val % 8 = 7 := (flush1_3 t).mp hf
  have h64 := lt64_1 t
  obtain ⟨-, -, -, -, -, -, e6, e7, -, -⟩ := idx_facts1 t
  show (cfg1.win 3).cut (grid1.coords t) (dat.after 3 t) = _
  rw [hafter]
  funext j
  show (acc1 V c t.val t.isLt).1 j = G1_3 V c (((cfg1.win 3).blk t).view.emb j)
  have hr0 : ((((cfg1.win 3).blk t).view.emb j) 0).val = (t.val / 8) * 1024 + (j 0).val := by
    show win1_3.index t (0 : Fin 2) * 1024 + 1 * (j 0).val = _; omega
  have hr1 : ((((cfg1.win 3).blk t).view.emb j) 1).val = (j 1).val := by
    show win1_3.index t (1 : Fin 2) * 128 + 1 * (j 1).val = _; omega
  rw [acc1_fold_3, h7]
  unfold G1_3
  rw [TileSum.sum_axis (show 8 * 1024 = 8192 from rfl), Finset.sum_range]
  refine sum_congr rfl fun s _ => ?_
  have hs : 8 * (t.val / 8) + s.val < cfg1.N := by have : cfg1.N = 64 := N_1; have := s.isLt; omega
  unfold M1_3; rw [dif_pos hs]; unfold dot1_3
  refine sum_congr rfl fun q _ => ?_
  have hs8 := s.isLt
  rw [coef1_apply V c ⟨_, hs⟩ (j 0) q ((((cfg1.win 3).blk t).view.emb j) 0) (TileSum.idx (show 8 * 1024 = 8192 from rfl) s q)
      (by rw [hr0]; show _ = (8 * (t.val / 8) + s.val) / 8 * 1024 + (j 0).val; omega)
      (by rw [TileSum.idx_val]; show _ = (8 * (t.val / 8) + s.val) % 8 * 1024 + q.val; omega),
    iblk1_1_apply V c ⟨_, hs⟩ q (j 1) (TileSum.idx (show 8 * 1024 = 8192 from rfl) s q) ((((cfg1.win 3).blk t).view.emb j) 1)
      (by rw [TileSum.idx_val]; show _ = (8 * (t.val / 8) + s.val) % 8 * 1024 + q.val; omega)
      hr1]

/-- What it writes back to the second output is that row block of the coefficients' row sums. -/
theorem flushed1_4_eq (c : Dev nD) (dat : Dat τ (Elt Ideal) Unit ℕ (UR sig nD τ) ℕ cfg1 c)
    (hafter : ∀ t, dat.after 4 t = (acc1 V c t.val t.isLt).2) (t : Fin cfg1.N) (hf : (cfg1.win 4).flush t = true) :
    dat.flushed 4 t = ((cfg1.win 4).blk t).view.read (Elt Ideal) (G1_4 V c) := by
  have h7 : t.val % 8 = 7 := (flush1_4 t).mp hf
  have h64 := lt64_1 t
  obtain ⟨-, -, -, -, -, -, -, -, e8, e9⟩ := idx_facts1 t
  show (cfg1.win 4).cut (grid1.coords t) (dat.after 4 t) = _
  rw [hafter]
  funext j
  show (acc1 V c t.val t.isLt).2 j = G1_4 V c (((cfg1.win 4).blk t).view.emb j)
  have hr0 : ((((cfg1.win 4).blk t).view.emb j) 0).val = (t.val / 8) * 1024 + (j 0).val := by
    show win1_4.index t (0 : Fin 2) * 1024 + 1 * (j 0).val = _; omega
  rw [acc1_fold_4, h7]
  unfold G1_4
  rw [TileSum.sum_axis (show 8 * 1024 = 8192 from rfl), Finset.sum_range]
  refine sum_congr rfl fun s _ => ?_
  have hs : 8 * (t.val / 8) + s.val < cfg1.N := by have : cfg1.N = 64 := N_1; have := s.isLt; omega
  unfold M1_4; rw [dif_pos hs]; unfold dot1_4
  refine sum_congr rfl fun q _ => ?_
  have hs8 := s.isLt
  rw [coef1_apply V c ⟨_, hs⟩ (j 0) q ((((cfg1.win 4).blk t).view.emb j) 0) (TileSum.idx (show 8 * 1024 = 8192 from rfl) s q)
      (by rw [hr0]; show _ = (8 * (t.val / 8) + s.val) / 8 * 1024 + (j 0).val; omega)
      (by rw [TileSum.idx_val]; show _ = (8 * (t.val / 8) + s.val) % 8 * 1024 + q.val; omega)]

/-- Every row of each output array is in the block of the last point of its row block. -/
theorem cover1_3 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  refine ⟨t, (flush1_3 t).mpr (by omega), ?_⟩
  obtain ⟨-, -, -, -, -, -, e6, e7, -, -⟩ := idx_facts1 t
  rw [mem_blk1_3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 128 ≤ (i 1).val ∧ (i 1).val < win1_3.index t (1 : Fin 2) * 128 + 128; omega

theorem cover1_4 (i : S8192x1.Idx) : ∃ t : Fin cfg1.N, (cfg1.win 4).flush t = true ∧ i ∈ ((cfg1.win 4).blk t).view.set := by
  have hi0 : (i 0).val < 8192 := (i 0).isLt
  have hi1 : (i 1).val < 1 := (i 1).isLt
  have hN : cfg1.N = 64 := N_1
  obtain ⟨t, ht⟩ : ∃ t : Fin cfg1.N, t.val = 8 * ((i 0).val / 1024) + 7 := ⟨⟨8 * ((i 0).val / 1024) + 7, by omega⟩, rfl⟩
  refine ⟨t, (flush1_4 t).mpr (by omega), ?_⟩
  obtain ⟨-, -, -, -, -, -, -, -, e8, e9⟩ := idx_facts1 t
  rw [mem_blk1_4]
  intro a
  match a with
  | ⟨0, _⟩ => show win1_4.index t (0 : Fin 2) * 1024 ≤ (i 0).val ∧ (i 0).val < win1_4.index t (0 : Fin 2) * 1024 + 1024; omega
  | ⟨1, _⟩ => show win1_4.index t (1 : Fin 2) * 1 ≤ (i 1).val ∧ (i 1).val < win1_4.index t (1 : Fin 2) * 1 + 1; omega

/-- After region 1 its first output array holds the coefficients against the value features and its second their row
    sums, for any proof data whose output windows are left at the accumulators. -/
theorem arr1_3 (c : Dev nD) (dat : Dat τ (Elt Ideal) Unit ℕ (UR sig nD τ) ℕ cfg1 c)
    (hafter : ∀ t, dat.after 3 t = (acc1 V c t.val t.isLt).1) : dat.arrAt 3 cfg1.N = G1_3 V c :=
  dat.arrAt_eq_of_cover 3 (G1_3 V c) (fun t hf => flushed1_3_eq V c dat hafter t hf) cover1_3

theorem arr1_4 (c : Dev nD) (dat : Dat τ (Elt Ideal) Unit ℕ (UR sig nD τ) ℕ cfg1 c)
    (hafter : ∀ t, dat.after 4 t = (acc1 V c t.val t.isLt).2) : dat.arrAt 4 cfg1.N = G1_4 V c :=
  dat.arrAt_eq_of_cover 4 (G1_4 V c) (fun t hf => flushed1_4_eq V c dat hafter t hf) cover1_4

end Cert.KernelIdeal.HandValue
end
-- ==== Proof.KI.Val2.lean ====
/-
  What region 2 leaves in its output array, at the ideal values: the product of the bias matrix with the normalised
  values, Σ_k B(i, k) · F(k, j) over all 8192 contraction indices.

  The region walks an 8 × 8 grid; point t works on row block t / 8 and contraction block t % 8. Its accumulator is reset
  at t % 8 = 0 and at every point gains the product of a [1024, 1024] block of B with a [1024, 128] block of F, so after
  the point with t % 8 = 7 it holds, at (p, e), the sum over the eight contraction blocks s and the 1024 offsets q of
  B(1024·(t/8) + p, 1024·s + q) · F(1024·s + q, e) — the sum over k = 1024·s + q of the whole row against the whole
  column. That point writes the accumulator back to row block t / 8 of the array, and the eight row blocks tile it.
-/
import proofs.«161805_j76459007803804_1_alg».proof.Proof.KI.Defs
import proofs.«161805_j76459007803804_1_alg».proof.Proof.LibPlainMatmul
import proofs.«161805_j76459007803804_1_alg».proof.Proof.LibTileSum
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open Finset

/-- The accumulator's reset value is zero everywhere. -/
theorem pay1_apply (i : S1024x128.Idx) : (k2_pay1 (F := Ideal)) i = 0 := by
  unfold k2_pay1
  simp only [shapeCast_self, broadcast_apply]
  exact Ideal.ofBits_zero_f32

/-- A point's step at an index: what was accumulated plus the block's row against the block's column. -/
theorem pay2_apply (x0 : Vec Ideal S1024x1024 .f32) (x1 : Vec Ideal S1024x128 .bf16) (acc : Vec Ideal S1024x128 .f32)
    (p : Fin 1024) (e : Fin 128) :
    k2_pay2 x0 x1 acc (ix2 p e) = acc (ix2 p e) + ∑ q : Fin 1024, x0 (ix2 p q) * x1 (ix2 q e) := by
  unfold k2_pay2
  simp only [shapeCast_self]
  rw [addf_apply]
  congr 1
  exact matmul_plain_zero_apply 1024 1024 128 none _ _ p e

/-! ## The windows' block indices, decided over the grid -/

theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

theorem lt64_2 (t : Fin cfg2.N) : t.val < 64 := lt_of_lt_of_eq t.isLt N_2

variable (V : (c : Dev nD) → (b : Ref sig .tc) → Buf (Elt Ideal) ((c : Thread nD τ).loc b))

/-- The first operand of region 2, the bias matrix, as the region finds it. -/
abbrev B3 (c : Dev nD) : S8192x8192.Idx → EReal := V c main_arg3
/-- The second operand of region 2, the normalised values, as the region finds it. -/
abbrev F7 (c : Dev nD) : S8192x128.Idx → EReal := V c main_v7

/-- A block of the first operand read at a block index is the array at the block's place. -/
theorem iblk2_0_apply (c : Dev nD) (t : Fin cfg2.N) (p q : Fin 1024) (row col : Fin 8192)
    (hr : row.val = (t.val / 8) * 1024 + p.val) (hc : col.val = (t.val % 8) * 1024 + q.val) :
    iblk2 V c 0 t (ix2 p q) = B3 V c (ix2 row col) := by
  obtain ⟨e0, e1, -, -, -, -⟩ := idx_facts2 t
  show V c main_arg3 (((cfg2.win 0).blk t).view.emb (ix2 p q)) = _
  congr 1
  funext a; apply Fin.ext
  match a with
  | ⟨0, _⟩ => show win2_0.index t (0 : Fin 2) * 1024 + 1 * p.val = row.val; omega
  | ⟨1, _⟩ => show win2_0.index t (1 : Fin 2) * 1024 + 1 * q.val = col.val; omega

theorem iblk2_1_apply (c : Dev nD) (t : Fin cfg2.N) (q : Fin 1024) (e : Fin 128) (row : Fin 8192) (col : Fin 128)
    (hr : row.val = (t.val % 8) * 1024 + q.val) (hc : col.val = e.val) :
    iblk2 V c 1 t (ix2 q e) = F7 V c (ix2 row col) := by
  obtain ⟨-, -, e0, e1, -, -⟩ := idx_facts2 t
  show V c main_v7 (((cfg2.win 1).blk t).view.emb (ix2 q e)) = _
  congr 1
  funext a; apply Fin.ext
  match a with
  | ⟨0, _⟩ => show win2_1.index t (0 : Fin 2) * 1024 + 1 * q.val = row.val; omega
  | ⟨1, _⟩ => show win2_1.index t (1 : Fin 2) * 128 + 1 * e.val = col.val; omega

/-! ## The accumulator at a point is the sum of the addends of its row block's points so far -/

/-- Point n's addend at an index of the block: the block's row of the first operand against the block's column of the
    second. -/
def dotAt (x0 : Vec Ideal S1024x1024 .f32) (x1 : Vec Ideal S1024x128 .bf16) (i : S1024x128.Idx) : EReal :=
  ∑ q : Fin 1024, x0 (ix2 (i 0) q) * x1 (ix2 q (i 1))

theorem pay2_apply' (x0 : Vec Ideal S1024x1024 .f32) (x1 : Vec Ideal S1024x128 .bf16) (acc : Vec Ideal S1024x128 .f32)
    (i : S1024x128.Idx) : k2_pay2 x0 x1 acc i = acc i + dotAt x0 x1 i := by
  obtain ⟨p, e, rfl⟩ : ∃ (p : Fin 1024) (e : Fin 128), i = ix2 p e := ⟨i 0, i 1, eq_ix2 i⟩
  exact pay2_apply x0 x1 acc p e

def M2 (c : Dev nD) (n : ℕ) (i : S1024x128.Idx) : EReal :=
  if h : n < cfg2.N then dotAt (iblk2 V c 0 ⟨n, h⟩) (iblk2 V c 1 ⟨n, h⟩) i else 0

theorem step2_apply (c : Dev nD) (n : ℕ) (h : n < cfg2.N) (acc : Vec Ideal S1024x128 .f32) (i : S1024x128.Idx) :
    k2_pay2 (iblk2 V c 0 ⟨n, h⟩) (iblk2 V c 1 ⟨n, h⟩) acc i = acc i + M2 V c n i := by
  rw [pay2_apply']; unfold M2; rw [dif_pos h]

theorem acc2_fold (c : Dev nD) (t : Fin cfg2.N) (i : S1024x128.Idx) :
    acc2 V c t.val t.isLt i = ∑ s ∈ range (t.val % 8 + 1), M2 V c (8 * (t.val / 8) + s) i := by
  have hb : 8 * (t.val / 8) + t.val % 8 < cfg2.N := by rw [Nat.div_add_mod]; exact t.isLt
  have h1 := Pipeline.eq_accAt_of_mod (N := cfg2.N) (acc2 V c) 8
    (fun n h => k2_pay2 (iblk2 V c 0 ⟨n, h⟩) (iblk2 V c 1 ⟨n, h⟩) (k2_pay1 (F := Ideal)))
    (fun n h prev => k2_pay2 (iblk2 V c 0 ⟨n, h⟩) (iblk2 V c 1 ⟨n, h⟩) prev)
    (fun n h h0 => acc2_reset V c ⟨n, h⟩ h0)
    (fun n h hne => acc2_step V c ⟨n + 1, h⟩ hne)
    (by decide) t.val t.isLt hb
  rw [h1]
  have h2 := Pipeline.accAt_add_apply (N := cfg2.N) (ι := S1024x128.Idx) (β := EReal)
    (fun n h => k2_pay2 (iblk2 V c 0 ⟨n, h⟩) (iblk2 V c 1 ⟨n, h⟩) (k2_pay1 (F := Ideal)))
    (fun n h prev => k2_pay2 (iblk2 V c 0 ⟨n, h⟩) (iblk2 V c 1 ⟨n, h⟩) prev)
    (fun _ => 0) (M2 V c) (8 * (t.val / 8)) 7
    (fun h i => by rw [step2_apply, pay1_apply])
    (fun n h acc i _ _ => step2_apply V c n h acc i)
    (t.val % 8) (by omega) hb i
  rw [h2, zero_add]

/-! ## Blocks to the array -/

/-- What region 2 computes: the whole product of the first operand with the second. -/
def G2 (c : Dev nD) : S8192x128.Idx → EReal :=
  fun i => ∑ k : Fin 8192, B3 V c (ix2 (i 0) k) * F7 V c (ix2 k (i 1))

/-- An index of the array is in point t's block iff each coordinate is in the block's range on its axis. -/
theorem mem_blk2 (t : Fin cfg2.N) (i : S8192x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v8).slice (win2_2.rect t)).set ↔ _
  rw [View.set_slice_whole, Rect.mem_set_unit]
  exact Iff.rfl

/-- What the last point of a row block writes back is that row block of the whole product. -/
theorem flushed2_eq (c : Dev nD) (dat : Dat τ (Elt Ideal) Unit ℕ (UR sig nD τ) ℕ cfg2 c)
    (hafter : ∀ t, dat.after 2 t = acc2 V c t.val t.isLt) (t : Fin cfg2.N) (hf : (cfg2.win 2).flush t = true) :
    dat.flushed 2 t = ((cfg2.win 2).blk t).view.read (Elt Ideal) (G2 V c) := by
  have h7 : t.val % 8 = 7 := (flush2_2 t).mp hf
  have h64 := lt64_2 t
  obtain ⟨-, -, -, -, e4, e5⟩ := idx_facts2 t
  show (cfg2.win 2).cut (grid2.coords t) (dat.after 2 t) = _
  rw [hafter]
  funext j
  show acc2 V c t.val t.isLt j = G2 V c (((cfg2.win 2).blk t).view.emb j)
  have hr0 : ((((cfg2.win 2).blk t).view.emb j) 0).val = (t.val / 8) * 1024 + (j 0).val := by
    show win2_2.index t (0 : Fin 2) * 1024 + 1 * (j 0).val = _; omega
  have hr1 : ((((cfg2.win 2).blk t).view.emb j) 1).val = (j 1).val := by
    show win2_2.index t (1 : Fin 2) * 128 + 1 * (j 1).val = _; omega
  rw [acc2_fold, h7]
  unfold G2
  rw [TileSum.sum_axis (show 8 * 1024 = 8192 from rfl), Finset.sum_range]
  refine sum_congr rfl fun s _ => ?_
  have hs : 8 * (t.val / 8) + s.val < cfg2.N := by have : cfg2.N = 64 := N_2; have := s.isLt; omega
  unfold M2; rw [dif_pos hs]; unfold dotAt
  refine sum_congr rfl fun q _ => ?_
  have hs8 := s.isLt
  rw [iblk2_0_apply V c ⟨_, hs⟩ (j 0) q ((((cfg2.win 2).blk t).view.emb j) 0) (TileSum.idx (show 8 * 1024 = 8192 from rfl) s q)
      (by rw [hr0]; show _ = (8 * (t.val / 8) + s.val) / 8 * 1024 + (j 0).val; omega)
      (by rw [TileSum.idx_val]; show _ = (8 * (t.val / 8) + s.val) % 8 * 1024 + q.val; omega),
    iblk2_1_apply V c ⟨_, hs⟩ q (j 1) (TileSum.idx (show 8 * 1024 = 8192 from rfl) s q) ((((cfg2.win 2).blk t).view.emb j) 1)
      (by rw [TileSum.idx_val]; show _ = (8 * (t.val / 8) + s.val) % 8 * 1024 + q.val; omega)
      hr1]

/-- Every row of the array is in the block of the last point of its row block. -/
theorem cover2 (i : S8192x128.Idx) : ∃ t : Fin cfg2.N, (cfg2.win 2).flush t = true ∧ i ∈ ((cfg2.win 2).blk t).view.set := by
  have hi0 : (i 0).val < 8192 := (i 0).isLt
  have hi1 : (i 1).val < 128 := (i 1).isLt
  have hN : cfg2.N = 64 := N_2
  obtain ⟨t, ht⟩ : ∃ t : Fin cfg2.N, t.val = 8 * ((i 0).val / 1024) + 7 := ⟨⟨8 * ((i 0).val / 1024) + 7, by omega⟩, rfl⟩
  refine ⟨t, (flush2_2 t).mpr (by omega), ?_⟩
  obtain ⟨-, -, -, -, e4, e5⟩ := idx_facts2 t
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 128 ≤ (i 1).val ∧ (i 1).val < win2_2.index t (1 : Fin 2) * 128 + 128; omega

/-- After region 2 its output array holds the whole product, for any proof data whose output window is left at the
    accumulator. -/
theorem arr2 (c : Dev nD) (dat : Dat τ (Elt Ideal) Unit ℕ (UR sig nD τ) ℕ cfg2 c)
    (hafter : ∀ t, dat.after 2 t = acc2 V c t.val t.isLt) :
    dat.arrAt 2 cfg2.N = G2 V c :=
  dat.arrAt_eq_of_cover 2 (G2 V c) (fun t hf => flushed2_eq V c dat hafter t hf) cover2

end Cert.KernelIdeal.HandValue
end
-- ==== Proof.LibRealEntries.lean ====
/-
  Real entries among the extended reals, and the law they are needed for.

  An extended real is REAL when it is the image of a real number (neither infinity). Sums, products, differences,
  maxima and finite sums of reals are real, so a value computed from real inputs by those operations is real without
  looking at how it was computed. That matters because the extended reals are not a ring: distributivity and
  cancellation fail at the infinities (⊤ + ⊥ = ⊥, 0 · ⊤ = 0), and an algebraic identity between two arrangements of
  one computation, true on the reals by `ring`, holds on the extended reals only where the entries are real.

  The law stated here is the folding of an evaluation-mode normalisation: with scale γ, shift β, mean μ and reciprocal
  deviation s, the plain form ((r − μ)·s)·γ + β and the folded multiply-add r·(γ·s) + (β − μ·(γ·s)) agree on real
  entries (both are the affine function r ↦ r·γ·s + β − μ·γ·s).
-/
import Idealize.ShloMosaic.PureOps.Ideal

noncomputable section

namespace Cert.LibRealEntries

open Finset

/-- An extended real that is a real number. -/
def IsReal (x : EReal) : Prop := ∃ r : ℝ, x = (r : EReal)

theorem IsReal.coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- The folded and the plain normalisation of one real entry agree: both are the affine function
    r ↦ r·γ·s + β − μ·γ·s. -/
theorem folded_eq_plain {r γ β μ s : EReal} (hr : IsReal r) (hγ : IsReal γ) (hβ : IsReal β) (hμ : IsReal μ) (hs : IsReal s) :
    r * (γ * s) + (β - μ * (γ * s)) = (r - μ) * s * γ + β := by
  obtain ⟨r, rfl⟩ := hr; obtain ⟨γ, rfl⟩ := hγ; obtain ⟨β, rfl⟩ := hβ; obtain ⟨μ, rfl⟩ := hμ; obtain ⟨s, rfl⟩ := hs
  simp only [← EReal.coe_mul, ← EReal.coe_sub, ← EReal.coe_add]
  congr 1
  ring

end Cert.LibRealEntries

end
-- ==== Proof.Spec.lean ====
/-
  The mathematics of the kernel and of its reference, on the extended reals.

  With rows `s_i` of `seq`, the two feature maps are  f(i, j) = tanh (s_i · w1_j)  and  g(i, j) = tanh (s_i · w2_j);
  the unnormalised coefficients are  c(i, k) = exp ((g_i · f_k) · σ) · B(i, k)  for the bias matrix `B` and a scale σ;
  their total is  T = Σ_{i,k} c(i, k).  The reference divides every coefficient by `T` before multiplying by `f`:
      mid(i, j) = Σ_l (c(i, l) / T) · f(l, j),        result(i, j) = Σ_k B(i, k) · mid(k, j).
  The kernel multiplies first and divides the product's entries by `T` afterwards:
      mid'(i, j) = (Σ_l c(i, l) · f(l, j)) / T.
  A hyperbolic tangent is a real number whatever its argument, so `f` and `g` are real; with a real bias matrix every
  coefficient is real, and so is `T`. Where `T` is a NONZERO real, dividing by it is multiplying by the real `1 / T`,
  and a real factor moves across a finite sum of reals: mid = mid'. (At `T = 0` the two differ: a quotient by zero is an
  infinity or the junk value, and infinities do not distribute over sums.)
-/
import Idealize.ShloMosaic.PureOps.Ideal
import Idealize.ShloMosaic.PureOps.Ideal.Laws
import Idealize.ShloMosaic.Lib.ValueIdx
import proofs.«161805_j76459007803804_1_alg».proof.Proof.LibRealEntries

noncomputable section

namespace Cert.Spec

open Idealize.ShloMosaic Idealize.ShloMosaic.ValueIdx Cert.LibRealEntries Finset

abbrev Sseq : Shape := ⟨2, ![8192, 512]⟩
abbrev Sw : Shape := ⟨2, ![128, 512]⟩
abbrev Sb : Shape := ⟨2, ![8192, 8192]⟩
abbrev So : Shape := ⟨2, ![8192, 128]⟩

/-- The scale both programs multiply the logits by: one f32 word, the same in both. -/
def scaleW : EReal := Ideal.ofBits .f32 0x3DB504F3#32

section Defs

variable (x0 : Sseq.Idx → EReal) (x1 x2 : Sw.Idx → EReal) (x3 : Sb.Idx → EReal)

/-- A feature map: tanh of a row of `seq` against a row of a weight matrix. -/
def fts (w : Sw.Idx → EReal) (i : Fin 8192) (j : Fin 128) : EReal :=
  Ideal.tanh (∑ k : Fin 512, x0 (ix2 i k) * w (ix2 j k))

/-- The unnormalised coefficient of row `i` against row `k`. -/
def coef (i k : Fin 8192) : EReal :=
  Ideal.exp ((∑ j : Fin 128, fts x0 x2 i j * fts x0 x1 k j) * scaleW) * x3 (ix2 i k)

/-- The total of all coefficients. -/
def total : EReal := ∑ i : Fin 8192, ∑ k : Fin 8192, coef x0 x1 x2 x3 i k

/-- The reference's normalised coefficients times the features. -/
def mid (i : Fin 8192) (j : Fin 128) : EReal :=
  ∑ l : Fin 8192, Ideal.div (coef x0 x1 x2 x3 i l) (total x0 x1 x2 x3) * fts x0 x1 l j

/-- The kernel's: the unnormalised product, divided afterwards. -/
def mid' (i : Fin 8192) (j : Fin 128) : EReal :=
  Ideal.div (∑ l : Fin 8192, coef x0 x1 x2 x3 i l * fts x0 x1 l j) (total x0 x1 x2 x3)

/-- The result: the bias matrix times `mid`. -/
def result (i : Fin 8192) (j : Fin 128) : EReal := ∑ k : Fin 8192, x3 (ix2 i k) * mid x0 x1 x2 x3 k j

/-- The kernel's result: the bias matrix times `mid'`. -/
def result' (i : Fin 8192) (j : Fin 128) : EReal := ∑ k : Fin 8192, x3 (ix2 i k) * mid' x0 x1 x2 x3 k j

end Defs

/-! ## Reals among the extended reals -/

/-- A hyperbolic tangent is a real number at every extended real. -/
theorem isReal_tanh (x : EReal) : IsReal (Ideal.tanh x) := by
  induction x using EReal.rec with
  | bot => exact ⟨-1, by simp⟩
  | coe r => exact ⟨Real.tanh r, rfl⟩
  | top => exact ⟨1, by simp⟩

/-- The exponential of a real is a real. -/
theorem isReal_exp {x : EReal} (h : IsReal x) : IsReal (Ideal.exp x) := by
  obtain ⟨r, rfl⟩ := h; exact ⟨Real.exp r, rfl⟩

/-- The scale's word denotes a real number: its exponent field is neither all ones nor zero. -/
theorem isReal_scaleW : IsReal scaleW := by
  unfold scaleW Ideal.ofBits Ideal.ieee
  simp only []
  rw [if_neg (by decide), if_neg (by decide)]
  exact ⟨_, rfl⟩

/-- The cast of a finite sum of reals is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-! ## The law -/

/-- Dividing each of finitely many real terms by a nonzero real before multiplying and summing, or dividing the sum of the
    products afterwards, is one number. -/
theorem div_sum_comm {n : ℕ} (c g : Fin n → EReal) (T : EReal) (hc : ∀ l, IsReal (c l)) (hg : ∀ l, IsReal (g l))
    (hT : IsReal T) (hT0 : T ≠ 0) :
    ∑ l, Ideal.div (c l) T * g l = Ideal.div (∑ l, c l * g l) T := by
  choose c' hc' using hc
  choose g' hg' using hg
  obtain ⟨t, rfl⟩ := hT
  have ht : t ≠ 0 := fun e => hT0 (by rw [e]; rfl)
  have ec : c = fun l => (c' l : EReal) := funext hc'
  have eg : g = fun l => (g' l : EReal) := funext hg'
  subst ec; subst eg
  simp only [Ideal.div_coe ht, ← EReal.coe_mul]
  rw [← coe_sum, ← coe_sum, ← EReal.coe_mul]
  congr 1
  rw [Finset.sum_mul]
  exact sum_congr rfl fun l _ => by ring

section Law

variable (x0 : Sseq.Idx → EReal) (x1 x2 : Sw.Idx → EReal) (x3 : Sb.Idx → EReal)

theorem isReal_fts (w : Sw.Idx → EReal) (i : Fin 8192) (j : Fin 128) : IsReal (fts x0 w i j) := isReal_tanh _

/-- With a real bias matrix every coefficient is real. -/
theorem isReal_coef (h3 : ∀ i, IsReal (x3 i)) (i k : Fin 8192) : IsReal (coef x0 x1 x2 x3 i k) :=
  (isReal_exp ((IsReal.sum _ _ fun j _ => (isReal_fts x0 x2 i j).mul (isReal_fts x0 x1 k j)).mul isReal_scaleW)).mul (h3 _)

theorem isReal_total (h3 : ∀ i, IsReal (x3 i)) : IsReal (total x0 x1 x2 x3) :=
  IsReal.sum _ _ fun i _ => IsReal.sum _ _ fun k _ => isReal_coef x0 x1 x2 x3 h3 i k

/-- Where the bias matrix is real and the total is not zero, normalising before or after the product with the features
    gives one matrix, -/
theorem mid_eq (h3 : ∀ i, IsReal (x3 i)) (hT : total x0 x1 x2 x3 ≠ 0) (i : Fin 8192) (j : Fin 128) :
    mid x0 x1 x2 x3 i j = mid' x0 x1 x2 x3 i j :=
  div_sum_comm (fun l => coef x0 x1 x2 x3 i l) (fun l => fts x0 x1 l j) _ (fun l => isReal_coef x0 x1 x2 x3 h3 i l)
    (fun l => isReal_fts x0 x1 l j) (isReal_total x0 x1 x2 x3 h3) hT

/-- and so one result. -/
theorem result_eq (h3 : ∀ i, IsReal (x3 i)) (hT : total x0 x1 x2 x3 ≠ 0) (i : Fin 8192) (j : Fin 128) :
    result' x0 x1 x2 x3 i j = result x0 x1 x2 x3 i j :=
  sum_congr rfl fun k _ => by rw [mid_eq x0 x1 x2 x3 h3 hT k j]

end Law

end Cert.Spec

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«161805_j76459007803804_1_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.KI.Bridge.lean ====
/-
  The idealized kernel's run, read back as one function of the argument arrays.

  Through the program: the first host stretch transposes the two weight matrices; region 0 leaves the two feature maps;
  region 1 leaves, for every row, the coefficient-weighted sum of the first feature map's rows and the row's sum of
  coefficients; the second host stretch adds the row sums into the total, divides the weighted sums by it and rounds
  (the identity at the ideal values); region 2 multiplies the bias matrix by the quotient. That is the specification's
  second arrangement (divide after the product); under the precondition it is the first (divide before), which is what
  the reference computes.
-/
import proofs.«161805_j76459007803804_1_alg».proof.Proof.KI.Run
import proofs.«161805_j76459007803804_1_alg».proof.Proof.KI.Val0
import proofs.«161805_j76459007803804_1_alg».proof.Proof.KI.Val1
import proofs.«161805_j76459007803804_1_alg».proof.Proof.KI.Val2
import proofs.«161805_j76459007803804_1_alg».proof.Proof.Spec
import proofs.«161805_j76459007803804_1_alg».proof.Proof.LibPlainDot
import Idealize.ShloMosaic.Lib.StableHlo.Run

noncomputable section

namespace Cert.KernelIdeal.HandValue

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen Cert.KernelIdeal.Hand Cert.Spec Cert.LibPlainDot Cert.LibRealEntries Finset

variable (m : (ℓ : Loc nD τ sig) → Buf (Elt Ideal) ℓ) (ρ : Dev nD → PrngReg)

/-- The four argument arrays as launched, as functions into the extended reals. -/
abbrev A0 (c : Dev nD) : Sseq.Idx → EReal := m ((c : Thread nD τ).loc main_arg0)
abbrev A1 (c : Dev nD) : Sw.Idx → EReal := m ((c : Thread nD τ).loc main_arg1)
abbrev A2 (c : Dev nD) : Sw.Idx → EReal := m ((c : Thread nD τ).loc main_arg2)
abbrev A3 (c : Dev nD) : Sb.Idx → EReal := m ((c : Thread nD τ).loc main_arg3)

/-! ## What region 0 finds -/

theorem V1_arg0 (c : Dev nD) : V1 m ρ c main_arg0 = m ((c : Thread nD τ).loc main_arg0) :=
  W1_of_arg m ρ c main_arg0 (by decide) (by decide)

theorem V1_v0 (c : Dev nD) : (V1 m ρ c main_v0 : S512x128.Idx → EReal)
    = transpose S512x128 [1, 0] (m ((c : Thread nD τ).loc main_arg1)) transposes_S128x512_S512x128_1_0 := by
  show StableHlo.after hostOps0 (W0 m ρ c) (Proc.devRef .tc main_v0) = _
  after_results

theorem V1_v1 (c : Dev nD) : (V1 m ρ c main_v1 : S512x128.Idx → EReal)
    = transpose S512x128 [1, 0] (m ((c : Thread nD τ).loc main_arg2)) transposes_S128x512_S512x128_1_0 := by
  show StableHlo.after hostOps0 (W0 m ρ c) (Proc.devRef .tc main_v1) = _
  after_results

/-- The projection by a transposed weight matrix is the specification's feature map. -/
theorem proj_transpose (A : S8192x512.Idx → EReal) (w : S128x512.Idx → EReal) :
    proj A (transpose S512x128 [1, 0] w transposes_S128x512_S512x128_1_0) = fun i => fts A w (i 0) (i 1) := by
  funext i
  unfold proj fts
  refine congrArg Ideal.tanh (sum_congr rfl fun k _ => ?_)
  exact congrArg (A (ix2 (i 0) k) * ·) (transpose_swap_apply 128 512 w transposes_S128x512_S512x128_1_0 k (i 1))

/-! ## What region 1 finds -/

theorem K1_eq (c : Dev nD) : K1 (V2 m ρ) c = fun i => fts (A0 m c) (A1 m c) (i 0) (i 1) := by
  show W2 m ρ c (Proc.devRef .tc (Pipeline.arrRef spec0 3)) = _
  rw [W2_arr, final0_3, V1_arg0, V1_v0, proj_transpose]

theorem Q1_eq (c : Dev nD) : Q1 (V2 m ρ) c = fun i => fts (A0 m c) (A2 m c) (i 0) (i 1) := by
  show W2 m ρ c (Proc.devRef .tc (Pipeline.arrRef spec0 4)) = _
  rw [W2_arr, final0_4, V1_arg0, V1_v1, proj_transpose]

theorem V2_arg3 (c : Dev nD) : V2 m ρ c main_arg3 = m ((c : Thread nD τ).loc main_arg3) :=
  (W2_of_ne m ρ c main_arg3 (by decide)).trans (W1_of_arg m ρ c main_arg3 (by decide) (by decide))

theorem B1_eq (c : Dev nD) : B1 (V2 m ρ) c = A3 m c := V2_arg3 m ρ c

/-- The coefficients region 1 computes are the specification's. -/
theorem C1_eq (c : Dev nD) (i k : Fin 8192) : C1 (V2 m ρ) c i k = coef (A0 m c) (A1 m c) (A2 m c) (A3 m c) i k := by
  unfold C1 coef scaleW
  rw [Q1_eq, K1_eq, B1_eq]

/-! ## What region 1 leaves -/

/-- Region 1's two output arrays after it, as functions into the extended reals. -/
abbrev R3 (c : Dev nD) : S8192x128.Idx → EReal := V3 m ρ c main_v3_0
abbrev R4 (c : Dev nD) : S8192x1.Idx → EReal := V3 m ρ c main_v3_1

theorem V3_ret (c : Dev nD) : R3 m ρ c
    = fun i => ∑ l : Fin 8192, coef (A0 m c) (A1 m c) (A2 m c) (A3 m c) (i 0) l * fts (A0 m c) (A1 m c) l (i 1) := by
  show W3 m ρ c (Proc.devRef .tc (Pipeline.arrRef spec1 3)) = _
  rw [W3_arr, arr1_3 (V2 m ρ) c (dat1 (V2 m ρ) c) (fun t => by dsimp only [dat1])]
  unfold G1_3
  funext i
  refine sum_congr rfl fun l _ => ?_
  exact congrArg₂ (· * ·) (C1_eq m ρ c (i 0) l) (congrFun (K1_eq m ρ c) (ix2 l (i 1)))

theorem V3_rowsum (c : Dev nD) : R4 m ρ c
    = fun i => ∑ l : Fin 8192, coef (A0 m c) (A1 m c) (A2 m c) (A3 m c) (i 0) l := by
  show W3 m ρ c (Proc.devRef .tc (Pipeline.arrRef spec1 4)) = _
  rw [W3_arr, arr1_4 (V2 m ρ) c (dat1 (V2 m ρ) c) (fun t => by dsimp only [dat1])]
  unfold G1_4
  funext i
  exact sum_congr rfl fun l _ => C1_eq m ρ c (i 0) l

/-! ## The second host stretch -/

theorem V4_v7 (c : Dev nD) : F7 (V4 m ρ) c
    = truncf (F := Ideal) .bf16 (Host.divf (F := Ideal) (R3 m ρ c)
        (broadcastInDim S8192x128 ![] bcast_S_S8192x128 (Host.reduceAdd (F := Ideal) (R4 m ρ c) (constant (F := Ideal) S_ .f32 0x00000000#32) reducesTo_S8192x1_S_d0_1 h_S_))) bitsLt_bf16_f32 := by
  show StableHlo.after hostOps2 (W3 m ρ c) (Proc.devRef .tc main_v7) = _
  after_results

/-- The host's sum of the row sums is the total of the coefficients. -/
theorem host_total (c : Dev nD) :
    Host.reduceAdd (F := Ideal) (R4 m ρ c) (constant (F := Ideal) S_ .f32 0x00000000#32) reducesTo_S8192x1_S_d0_1 h_S_ ix0
      = total (A0 m c) (A1 m c) (A2 m c) (A3 m c) := by
  have hsum : Host.reduceAdd (F := Ideal) (R4 m ρ c) (constant (F := Ideal) S_ .f32 0x00000000#32) reducesTo_S8192x1_S_d0_1 h_S_ ix0
      = (constant (F := Ideal) S_ .f32 0x00000000#32) (Shape.Idx.first h_S_) + ∑ j : S8192x1.Idx, R4 m ρ c j := by
    simp only [Host.reduceAdd, Ideal.hostReduceAdd_def]
    exact Ideal.hostReduceAdd_total reducesTo_S8192x1_S_d0_1 (fun b => b.elim0) _ _ ix0
  rw [hsum, constant_apply, Ideal.ofBits_zero_f32, zero_add, sum_idx2, V3_rowsum m ρ c]
  unfold total
  exact sum_congr rfl fun i _ => Fin.sum_univ_one _

/-! ## What region 2 finds, and leaves -/

/-- The host's quotient at an index: the entry divided by the one sum. -/
theorem quot_apply (r3 : S8192x128.Idx → EReal) (r4 : S8192x1.Idx → EReal) (i : S8192x128.Idx) :
    (truncf (F := Ideal) .bf16 (Host.divf (F := Ideal) r3 (broadcastInDim S8192x128 ![] bcast_S_S8192x128
        (Host.reduceAdd (F := Ideal) r4 (constant (F := Ideal) S_ .f32 0x00000000#32) reducesTo_S8192x1_S_d0_1 h_S_))) bitsLt_bf16_f32 : S8192x128.Idx → EReal) i
      = Ideal.div (r3 i) (Host.reduceAdd (F := Ideal) r4 (constant (F := Ideal) S_ .f32 0x00000000#32) reducesTo_S8192x1_S_d0_1 h_S_ ix0) := by
  show Ideal.div (r3 i) (broadcastInDim S8192x128 ![] bcast_S_S8192x128
    (Host.reduceAdd (F := Ideal) r4 (constant (F := Ideal) S_ .f32 0x00000000#32) reducesTo_S8192x1_S_d0_1 h_S_) i) = _
  rw [broadcastInDim_apply ![] bcast_S_S8192x128 _ i ix0 (fun a => a.elim0)]

theorem F7_eq (c : Dev nD) : F7 (V4 m ρ) c = fun i => mid' (A0 m c) (A1 m c) (A2 m c) (A3 m c) (i 0) (i 1) := by
  rw [V4_v7]
  funext i
  rw [quot_apply, host_total m ρ c, V3_ret m ρ c]
  rfl

theorem B3_eq (c : Dev nD) : B3 (V4 m ρ) c = A3 m c :=
  (W4_of_arg m ρ c main_arg3 (by decide) (by decide) (by decide) (by decide) (by decide)).trans
    (((W3_arr m ρ c 2).trans (((dat1 (V2 m ρ) c).arrAt_in 2 rfl _).trans (A_eq1 (V2 m ρ) c 2))).trans (V2_arg3 m ρ c))

/-- The result array after the run is the kernel's arrangement of the specification. -/
theorem W5_v8 (c : Dev nD) : (W5 m ρ c (Proc.devRef .tc main_v8) : S8192x128.Idx → EReal)
    = fun i => result' (A0 m c) (A1 m c) (A2 m c) (A3 m c) (i 0) (i 1) := by
  show W5 m ρ c (Proc.devRef .tc (Pipeline.arrRef spec2 2)) = _
  rw [W5_arr, arr2 (V4 m ρ) c (dat2 (V4 m ρ) c) (fun t => by dsimp only [dat2])]
  unfold G2
  funext i
  unfold result'
  refine sum_congr rfl fun k _ => ?_
  rw [B3_eq, F7_eq]

/-! ## The run, read -/

/-- Where the bias matrix is real and the coefficients' total is not zero: every weakly fair execution of the idealized
    kernel terminates with the result array at the specification's result and the arguments unchanged. -/
theorem run_value (h3 : ∀ c i, IsReal (A3 m c i)) (hT : ∀ c, total (A0 m c) (A1 m c) (A2 m c) (A3 m c) ≠ 0) :
    θ_run defs (onTc (τ := τ) (main (F := Ideal))) ⟨m, fun _ => 0, ρ⟩ (fun r => ∀ c : Dev nD,
      r.2.mem ((c.tc : Thread nD τ).loc main_v8) = (fun i => result (A0 m c) (A1 m c) (A2 m c) (A3 m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v8 (by decide))).trans ((W5_v8 m ρ c).trans
        (funext fun i => result_eq (A0 m c) (A1 m c) (A2 m c) (A3 m c) (h3 c) (hT c) (i 0) (i 1))),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run m ρ)

end Cert.KernelIdeal.HandValue

end
-- ==== Proof.RefSide.lean ====
/-
  The reference program's result, read one operation at a time at an index, is the specification's `result`:
  two feature maps (a product with a transposed weight matrix, then tanh), the logits (a product of one feature map
  with the transpose of the other) times the scale, their exponentials times the bias matrix, the total of those
  coefficients, each coefficient divided by the total, and two more matrix products.
-/
import proofs.«161805_j76459007803804_1_alg».proof.Defs
import proofs.«161805_j76459007803804_1_alg».proof.Proof.Gen.ReferenceIdeal.Run
import proofs.«161805_j76459007803804_1_alg».proof.Proof.Gen.ReferenceIdeal.Read
import proofs.«161805_j76459007803804_1_alg».proof.Proof.Spec

noncomputable section

namespace Cert.ReferenceIdeal.RefValue

open Cert.ReferenceIdeal Cert.ReferenceIdeal.Gen Cert.ReferenceIdeal.Read Cert.Spec
open Idealize.ShloMosaic Idealize.ShloMosaic.ValueIdx Finset

/-- Two rank-2 indices with the same coordinates are equal. -/
local macro "idx_eq" : tactic =>
  `(tactic| exact funext fun d => Fin.ext (by match d with | ⟨0, _⟩ => rfl | ⟨1, _⟩ => rfl))

variable (x0 : (⟨S8192x512, .f32⟩ : BufTy).Contents (Elt Ideal)) (x1 x2 : (⟨S128x512, .f32⟩ : BufTy).Contents (Elt Ideal))
  (x3 : (⟨S8192x8192, .f32⟩ : BufTy).Contents (Elt Ideal))

/-- The first feature map. -/
theorem v2_eq (i : Fin 8192) (j : Fin 128) : val_main_v2 (F := Ideal) x0 x1 (ix2 i j) = fts x0 x1 i j := by
  rw [val_main_v2_apply, val_main_v1_apply, Ideal.hostUnary_tanh_def]
  unfold fts
  refine congrArg Ideal.tanh (sum_congr rfl fun k _ => ?_)
  rw [val_main_v0_apply]
  have e1 : lidx_main_v1 (ix2 i j) k = ix2 i k := by idx_eq
  have e2 : idx_main_v0 (ridx_main_v1 (ix2 i j) k) = ix2 j k := by idx_eq
  rw [e1, e2]

/-- The second feature map. -/
theorem v5_eq (i : Fin 8192) (j : Fin 128) : val_main_v5 (F := Ideal) x0 x2 (ix2 i j) = fts x0 x2 i j := by
  rw [val_main_v5_apply, val_main_v4_apply, Ideal.hostUnary_tanh_def]
  unfold fts
  refine congrArg Ideal.tanh (sum_congr rfl fun k _ => ?_)
  rw [val_main_v3_apply]
  have e1 : lidx_main_v4 (ix2 i j) k = ix2 i k := by idx_eq
  have e2 : idx_main_v3 (ridx_main_v4 (ix2 i j) k) = ix2 j k := by idx_eq
  rw [e1, e2]

/-- The unnormalised coefficients. -/
theorem v11_eq (i k : Fin 8192) : val_main_v11 (F := Ideal) x0 x1 x2 x3 (ix2 i k) = coef x0 x1 x2 x3 i k := by
  rw [val_main_v11_apply, val_main_v10_apply, val_main_v9_apply, val_main_v7_apply, val_main_v8_apply, val_main_cst_apply,
    Ideal.mulf_def, Ideal.mulf_def, Ideal.hostUnary_exp_def, Ideal.ofBits_def]
  unfold coef scaleW
  refine congrArg (fun z => Ideal.exp (z * _) * _) (sum_congr rfl fun j _ => ?_)
  rw [val_main_v6_apply]
  have e1 : lidx_main_v7 (ix2 i k) j = ix2 i j := by idx_eq
  have e2 : idx_main_v6 (ridx_main_v7 (ix2 i k) j) = ix2 k j := by idx_eq
  rw [e1, e2, v5_eq, v2_eq]

/-- Their total. -/
theorem v12_eq (i : S_.Idx) : val_main_v12 (F := Ideal) x0 x1 x2 x3 i = total x0 x1 x2 x3 := by
  rw [val_main_v12_apply, val_main_cst_0_apply, Ideal.ofBits_def, Ideal.ofBits_zero_f32, zero_add, sum_idx2]
  unfold total
  exact sum_congr rfl fun a _ => sum_congr rfl fun b _ => v11_eq x0 x1 x2 x3 a b

/-- The normalised coefficients. -/
theorem v14_eq (i l : Fin 8192) :
    val_main_v14 (F := Ideal) x0 x1 x2 x3 (ix2 i l) = Ideal.div (coef x0 x1 x2 x3 i l) (total x0 x1 x2 x3) := by
  rw [val_main_v14_apply, Ideal.hostDivf_def, v11_eq, val_main_v13_apply, v12_eq]

/-- Their product with the first feature map. -/
theorem v15_eq (i : Fin 8192) (j : Fin 128) : val_main_v15 (F := Ideal) x0 x1 x2 x3 (ix2 i j) = mid x0 x1 x2 x3 i j := by
  rw [val_main_v15_apply]
  unfold mid
  refine sum_congr rfl fun l _ => ?_
  have e1 : lidx_main_v15 (ix2 i j) l = ix2 i l := by idx_eq
  have e2 : ridx_main_v15 (ix2 i j) l = ix2 l j := by idx_eq
  rw [e1, e2, v14_eq, v2_eq]

/-- The reference's result is the specification's. -/
theorem v16_eq (i : Fin 8192) (j : Fin 128) : val_main_v16 (F := Ideal) x0 x1 x2 x3 (ix2 i j) = result x0 x1 x2 x3 i j := by
  rw [val_main_v16_apply]
  unfold result
  refine sum_congr rfl fun k _ => ?_
  have e1 : lidx_main_v16 (ix2 i j) k = ix2 i k := by idx_eq
  have e2 : ridx_main_v16 (ix2 i j) k = ix2 k j := by idx_eq
  rw [e1, e2, v15_eq]

/-- The whole result array. -/
theorem ref_eq : val_main_v16 (F := Ideal) x0 x1 x2 x3 = fun i => result x0 x1 x2 x3 (i 0) (i 1) :=
  funext fun i => by rw [eq_ix2 i]; exact v16_eq x0 x1 x2 x3 _ _

end Cert.ReferenceIdeal.RefValue

end
-- ==== Proof.LibFinitePre.lean ====
/-
  Reading a printed precondition's tests "every entry is finite" and "every entry is nonnegative", at the ideal values.

  A precondition that says `jnp.all(|x| < inf)` of an array prints as a reduction by `and`, over all axes, of the
  comparison of |x| with the +∞ constant spread over the array's shape; it holds when the reduction's one result is 1.
  A reduction by `and` that is 1 had a 1 at every entry, so at every entry |x| = max(x, −x) is below the top of the
  extended reals, which excludes both infinities: the entry is a real number. The test `jnp.all(x >= 0)` reads the same
  way, through the order's comparison with the zero constant. Each lemma takes the test in the form it is printed in,
  for any shape and any reduced axes, so a precondition's conjunction is read one test at a time.
-/
import Idealize.ShloMosaic.Lib.ReduceAll
import Idealize.ShloMosaic.Lib.Pipeline.Value
import Idealize.ShloMosaic.Lib.ValueIdx
import Idealize.ShloMosaic.PureOps.Ideal.Laws
import proofs.«161805_j76459007803804_1_alg».proof.Proof.LibRealEntries

noncomputable section

namespace Cert.LibFinitePre

open Idealize.ShloMosaic Idealize.ShloMosaic.ValueIdx Cert.LibRealEntries

/-- The rank-0 shape has one index. -/
instance : Subsingleton (⟨0, ![]⟩ : Shape).Idx := ⟨fun a b => funext fun d => d.elim0⟩

/-- The f32 +∞ pattern is the top of the extended reals. -/
theorem inf_word : Ideal.ofBits .f32 0x7F800000#32 = ⊤ := by
  simp [Ideal.ofBits, Ideal.ieee]

theorem ofBool_eq_one (b : Bool) : BitVec.ofBool b = 1#1 ↔ b = true := by cases b <;> decide

/-- |x| < +∞ on the extended reals: x is a real. -/
theorem isReal_of_abs_lt_top (x : EReal) (h : Ideal.cmp .olt (max x (-x)) ⊤ = 1#1) : IsReal x := by
  have h' : max x (-x) < ⊤ := of_decide_eq_true ((ofBool_eq_one _).1 h)
  induction x using EReal.rec with
  | bot => exact absurd h' (by simp)
  | coe r => exact ⟨r, rfl⟩
  | top => exact absurd h' (by simp)

/-- x ≥ 0 on the extended reals is the order's. -/
theorem nonneg_of_cmp (x : EReal) (h : Ideal.cmp .oge x 0 = 1#1) : 0 ≤ x :=
  of_decide_eq_true ((ofBool_eq_one _).1 h)

/-- A test "every |entry| < +∞" that holds says every entry is a real. -/
theorem all_real {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .olt (Host.absf a) (broadcastInDim s ![] hb (constant (F := Ideal) ⟨0, ![]⟩ .f32 0x7F800000#32)))
      (constantI ⟨0, ![]⟩ 1 1#1) hr hu ix0 = 1#1) (i : s.Idx) : IsReal (a i) := by
  have h := Host.reduce_andi_all _ _ hr hu ix0 e i
  have hb' : broadcastInDim s ![] hb (constant (F := Ideal) ⟨0, ![]⟩ .f32 0x7F800000#32) i = ⊤ :=
    (broadcastInDim_apply ![] hb _ i ix0 (fun a => a.elim0)).trans inf_word
  refine isReal_of_abs_lt_top (a i) ?_
  have h2 : Ideal.cmp .olt (max (a i) (-(a i))) (broadcastInDim s ![] hb (constant (F := Ideal) ⟨0, ![]⟩ .f32 0x7F800000#32) i) = 1#1 := h
  rwa [hb'] at h2

/-- A test "every entry ≥ 0" that holds says every entry is nonnegative. -/
theorem all_nonneg {s : Shape} {axes : List (Fin s.rank)} (a : FVec Ideal s .f32) (hb : (⟨0, ![]⟩ : Shape).BroadcastsInDim s ![])
    (hr : s.ReducesTo axes ⟨0, ![]⟩) (hu : 0 < (⟨0, ![]⟩ : Shape).numel)
    (e : Host.reduce IntOp.andi (cmpf .oge a (broadcastInDim s ![] hb (constant (F := Ideal) ⟨0, ![]⟩ .f32 0x00000000#32)))
      (constantI ⟨0, ![]⟩ 1 1#1) hr hu ix0 = 1#1) (i : s.Idx) : 0 ≤ a i := by
  have h := Host.reduce_andi_all _ _ hr hu ix0 e i
  have hb' : broadcastInDim s ![] hb (constant (F := Ideal) ⟨0, ![]⟩ .f32 0x00000000#32) i = 0 :=
    (broadcastInDim_apply ![] hb _ i ix0 (fun a => a.elim0)).trans Ideal.ofBits_zero_f32
  refine nonneg_of_cmp (a i) ?_
  have h2 : Ideal.cmp .oge (a i) (broadcastInDim s ![] hb (constant (F := Ideal) ⟨0, ![]⟩ .f32 0x00000000#32) i) = 1#1 := h
  rwa [hb'] at h2

end Cert.LibFinitePre

end
-- ==== Proof.PreFacts.lean ====
/-
  What the precondition says of the inputs, at the ideal values: every entry of the bias matrix is a real number, and
  the total of the unnormalised coefficients — the number the reference divides by, computed in the precondition by
  the reference's own operations — is not zero.
-/
import proofs.«161805_j76459007803804_1_alg».proof.Pre_finite_inputs
import proofs.«161805_j76459007803804_1_alg».proof.Proof.Gen.Pre_finite_inputs
import proofs.«161805_j76459007803804_1_alg».proof.Proof.Spec
import proofs.«161805_j76459007803804_1_alg».proof.Proof.LibPlainDot
import proofs.«161805_j76459007803804_1_alg».proof.Proof.LibFinitePre
import Idealize.ShloMosaic.Lib.Affine

noncomputable section

namespace Cert.PreFacts

open Cert.Pre_finite_inputs Cert.Spec Cert.LibRealEntries Cert.LibPlainDot
open Idealize.ShloMosaic Idealize.ShloMosaic.ValueIdx Finset

variable [Cert.Pre_finite_inputs.Facts]
open Cert.Pre_finite_inputs.Facts

variable (a0 : FVec Ideal S8192x512 .f32) (a1 a2 : FVec Ideal S128x512 .f32) (a3 : FVec Ideal S8192x8192 .f32)

/-- A feature map as the precondition computes it: tanh of `seq` times a transposed weight matrix. -/
def preF (w : FVec Ideal S128x512 .f32) : FVec Ideal S8192x128 .f32 :=
  Host.tanh (Host.dotGeneral dot_S8192x512_S512x128_S8192x128_1_0_0_1_n_n none a0
    (transpose S512x128 [1, 0] w transposes_S128x512_S512x128_1_0))

/-- The unnormalised coefficients as the precondition computes them. -/
def preCoef : FVec Ideal S8192x8192 .f32 :=
  mulf (Host.exp (mulf (Host.dotGeneral dot_S8192x128_S128x8192_S8192x8192_1_0_0_1_n_n none (preF a0 a2)
      (transpose S128x8192 [1, 0] (preF a0 a1) transposes_S8192x128_S128x8192_1_0))
    (broadcastInDim S8192x8192 ![] bcast_S_S8192x8192 (constant S_ .f32 0x3DB504F3#32)))) a3

theorem preF_apply (w : FVec Ideal S128x512 .f32) (i : Fin 8192) (j : Fin 128) : preF a0 w (ix2 i j) = fts a0 w i j := by
  show Ideal.tanh (FloatOps.dotGeneral (DotDims.plain 8192 512 128) none _ a0
    (transpose S512x128 [1, 0] w transposes_S128x512_S512x128_1_0) (ix2 i j)) = _
  rw [dotGeneral_plain_apply]
  unfold fts
  refine congrArg Ideal.tanh (sum_congr rfl fun k _ => ?_)
  rw [transpose_swap_apply]

theorem preCoef_apply (i k : Fin 8192) : preCoef a0 a1 a2 a3 (ix2 i k) = coef a0 a1 a2 a3 i k := by
  show Ideal.exp (FloatOps.dotGeneral (DotDims.plain 8192 128 8192) none _ (preF a0 a2)
      (transpose S128x8192 [1, 0] (preF a0 a1) transposes_S8192x128_S128x8192_1_0) (ix2 i k)
    * broadcastInDim S8192x8192 ![] bcast_S_S8192x8192 (constant (F := Ideal) S_ .f32 0x3DB504F3#32) (ix2 i k)) * a3 (ix2 i k) = _
  rw [dotGeneral_plain_apply, broadcastInDim_apply ![] bcast_S_S8192x8192 _ (ix2 i k) ix0 (fun a => a.elim0)]
  unfold coef scaleW
  refine congrArg (fun z => Ideal.exp (z * _) * _) (sum_congr rfl fun j _ => ?_)
  rw [transpose_swap_apply, preF_apply, preF_apply]

/-- The precondition's total is the specification's. -/
theorem preTotal_eq :
    Host.reduceAdd (preCoef a0 a1 a2 a3) (constant (F := Ideal) S_ .f32 0x00000000#32) reducesTo_S8192x8192_S_d0_1 h_S_ ix0
      = total a0 a1 a2 a3 := by
  have hsum : Host.reduceAdd (preCoef a0 a1 a2 a3) (constant (F := Ideal) S_ .f32 0x00000000#32) reducesTo_S8192x8192_S_d0_1 h_S_ ix0
      = (constant (F := Ideal) S_ .f32 0x00000000#32) (Shape.Idx.first h_S_) + ∑ j : S8192x8192.Idx, preCoef a0 a1 a2 a3 j := by
    simp only [Host.reduceAdd, Ideal.hostReduceAdd_def]
    exact Ideal.hostReduceAdd_total reducesTo_S8192x8192_S_d0_1 (fun b => b.elim0) _ _ ix0
  rw [hsum, constant_apply, Ideal.ofBits_zero_f32, zero_add, sum_idx2]
  unfold total
  exact sum_congr rfl fun i _ => sum_congr rfl fun k _ => preCoef_apply a0 a1 a2 a3 i k

/-- Under the precondition every entry of the bias matrix is real and the total is not zero. -/
theorem of_pre (h : Cert.Pre_finite_inputs.fn (F := Ideal) a0 a1 a2 a3 = fun _ => 1#1) :
    (∀ i, IsReal (a3 i)) ∧ total a0 a1 a2 a3 ≠ 0 := by
  have h0 := congrFun h ix0
  dsimp only [Cert.Pre_finite_inputs.fn, Cert.Pre_finite_inputs.fn_part1] at h0
  obtain ⟨h18, h32⟩ := IntOp.andi_eq_one.mp h0
  obtain ⟨-, h17⟩ := IntOp.andi_eq_one.mp h18
  refine ⟨fun i => Cert.LibFinitePre.all_real a3 bcast_S_S8192x8192 reducesTo_S8192x8192_S_d0_1 h_S_ h17 i, ?_⟩
  have h32' : Ideal.cmp .une
      (Host.reduceAdd (preCoef a0 a1 a2 a3) (constant (F := Ideal) S_ .f32 0x00000000#32) reducesTo_S8192x8192_S_d0_1 h_S_ ix0)
      (Ideal.ofBits .f32 0x00000000#32) = 1#1 := h32
  rw [preTotal_eq, Ideal.ofBits_zero_f32] at h32'
  exact of_decide_eq_true ((Cert.LibFinitePre.ofBool_eq_one _).1 h32')

end Cert.PreFacts

end
-- ==== Proof.lean ====
/-
  The certificate of the kernel against its reference.

  The kernel is three pipelined regions among host operations: two projections followed by tanh; an attention-like pass
  that accumulates, per block of rows, the coefficient-weighted sum of feature rows and the coefficients' row sums over
  eight blocks of columns; a division of the weighted sums by the total of all coefficients; and a product of the bias
  matrix with the quotient, accumulated the same way. The reference divides the coefficients by their total first and
  multiplies afterwards. On the extended reals the two orders agree where the bias matrix is real and the total is a
  nonzero real: the precondition says both (where the total is zero the reference divides by zero).

  Frames: the word-level program and its idealization are one text, and one proof, generic in the float instance, gives
  both; the reference's frame is its run with the result dropped. The idealization rewrote no operation.
-/
import proofs.«161805_j76459007803804_1_alg».proof.Defs
import proofs.«161805_j76459007803804_1_alg».proof.Proof.Gen.Kernel
import proofs.«161805_j76459007803804_1_alg».proof.Proof.Gen.KernelIdeal
import proofs.«161805_j76459007803804_1_alg».proof.Proof.Gen.ReferenceIdeal
import proofs.«161805_j76459007803804_1_alg».proof.Proof.Gen.Pre_finite_inputs
import proofs.«161805_j76459007803804_1_alg».proof.Proof.Gen.ReferenceIdeal.Run
import proofs.«161805_j76459007803804_1_alg».proof.Proof.Gen.ReferenceIdeal.Read
import proofs.«161805_j76459007803804_1_alg».proof.Proof.K.Run
import proofs.«161805_j76459007803804_1_alg».proof.Proof.KI.Run
import proofs.«161805_j76459007803804_1_alg».proof.Proof.KI.Bridge
import proofs.«161805_j76459007803804_1_alg».proof.Proof.RefSide
import proofs.«161805_j76459007803804_1_alg».proof.Proof.PreFacts
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end at the specification's result: the kernel by its run read back and the law that moves
    the division across the product, the reference by its operations read one at a time. -/
theorem algebraic : @Cert.algebraic_KernelIdeal_ReferenceIdeal Cert.KernelIdeal.Gen.facts Cert.ReferenceIdeal.Gen.facts Cert.Pre_finite_inputs.Gen.facts := by
  intro m ρ m' ρ' hpre hagree
  have hp := fun c => Cert.PreFacts.of_pre _ _ _ _ (hpre c)
  refine ⟨fun c i => Cert.Spec.result (Cert.KernelIdeal.HandValue.A0 m c) (Cert.KernelIdeal.HandValue.A1 m c)
      (Cert.KernelIdeal.HandValue.A2 m c) (Cert.KernelIdeal.HandValue.A3 m c) (i 0) (i 1),
    Cert.KernelIdeal.HandValue.run_value m ρ (fun c => (hp c).1) (fun c => (hp c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
